-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x4096 : Shape := ⟨3, ![8, 4, 4096]⟩
abbrev S14336x4096 : Shape := ⟨2, ![14336, 4096]⟩
abbrev S4096x14336 : Shape := ⟨2, ![4096, 14336]⟩
abbrev S_ : Shape := ⟨0, ![]⟩

class Facts : Prop where
  bcast_S_S8x4x4096 : S_.BroadcastsInDim S8x4x4096 (![] : Fin 0 → Fin S8x4x4096.rank)
  reducesTo_S8x4x4096_S_d0_1_2 : S8x4x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn {F : FTy → Type} [FloatOps F] (main_arg0 : FVec F S8x4x4096 .f32) (main_arg1 : FVec F S14336x4096 .f32) (main_arg2 : FVec F S4096x14336 .f32) : IVec S_ 1 :=
  let main_v0 : FVec F S8x4x4096 .f32 := Host.absf main_arg0
  let main_cst : FVec F S_ .f32 := constant S_ .f32 0x7F800000#32
  let main_v1 : FVec F S8x4x4096 .f32 := broadcastInDim S8x4x4096 ![] bcast_S_S8x4x4096 main_cst
  let main_v2 : IVec S8x4x4096 1 := cmpf .olt main_v0 main_v1
  let main_c : IVec S_ 1 := constantI S_ 1 1#1
  let main_v3 : IVec S_ 1 := (fun x v => Host.reduce IntOp.andi x v reducesTo_S8x4x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  main_v13
-- ==== Kernel.lean ====
abbrev S8x4x4096 : Shape := ⟨3, ![8, 4, 4096]⟩
abbrev S14336x4096 : Shape := ⟨2, ![14336, 4096]⟩
abbrev S4096x14336 : Shape := ⟨2, ![4096, 14336]⟩
abbrev S32x4096 : Shape := ⟨2, ![32, 4096]⟩
abbrev S4096x32 : Shape := ⟨2, ![4096, 32]⟩
abbrev S128x4096 : Shape := ⟨2, ![128, 4096]⟩
abbrev S64x14336 : Shape := ⟨2, ![64, 14336]⟩
abbrev S256x32 : Shape := ⟨2, ![256, 32]⟩
abbrev S14336x32 : Shape := ⟨2, ![14336, 32]⟩
abbrev S128x32 : Shape := ⟨2, ![128, 32]⟩
abbrev S64x32 : Shape := ⟨2, ![64, 32]⟩

abbrev nBuf : Space → Nat
  | .hbm => 8
  | .vmem => 20
  | .smem => 0
  | _ => 0

abbrev bufTy : (tb : Table) → Fin (tcTables nBuf tb) → BufTy
  | .hbm, ⟨0, _⟩ => ⟨S8x4x4096, .f32⟩
  | .hbm, ⟨1, _⟩ => ⟨S14336x4096, .f32⟩
  | .hbm, ⟨2, _⟩ => ⟨S4096x14336, .f32⟩
  | .hbm, ⟨3, _⟩ => ⟨S32x4096, .f32⟩
  | .hbm, ⟨4, _⟩ => ⟨S4096x32, .f32⟩
  | .hbm, ⟨5, _⟩ => ⟨S4096x32, .f32⟩
  | .hbm, ⟨6, _⟩ => ⟨S32x4096, .f32⟩
  | .hbm, ⟨7, _⟩ => ⟨S8x4x4096, .f32⟩
  | .local _ .vmem, ⟨0, _⟩ => ⟨S4096x32, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S64x14336, .f32⟩
  | .local _ .vmem, ⟨10, _⟩ => ⟨S64x14336, .f32⟩
  | .local _ .vmem, ⟨11, _⟩ => ⟨S64x14336, .f32⟩
  | .local _ .vmem, ⟨12, _⟩ => ⟨S64x14336, .f32⟩
  | .local _ .vmem, ⟨13, _⟩ => ⟨S64x14336, .f32⟩
  | .local _ .vmem, ⟨14, _⟩ => ⟨S64x14336, .f32⟩
  | .local _ .vmem, ⟨15, _⟩ => ⟨S64x14336, .f32⟩
  | .local _ .vmem, ⟨16, _⟩ => ⟨S64x14336, .f32⟩
  | .local _ .vmem, ⟨17, _⟩ => ⟨S256x32, .f32⟩
  | .local _ .vmem, ⟨18, _⟩ => ⟨S256x32, .f32⟩
  | .local _ .vmem, ⟨19, _⟩ => ⟨S14336x32, .f32⟩
  | _, _ => ⟨S8x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![44], ![false]⟩

def k0_cond1 (i : grid0.Coords) : BitVec 1 :=
  let arg0 : BitVec 32 := BitVec.ofNat 32 (i 0).val
  let c28_i32 : BitVec 32 := 28#32
  let v0 : BitVec 1 := Scalar.cmpi .slt arg0 c28_i32
  let v1 : BitVec 32 := Scalar.extui v0
  let c0_i32 : BitVec 32 := 0#32
  let v2 : BitVec 1 := Scalar.cmpi .ne v1 c0_i32
  v2

def k0_off1 (i : grid0.Coords) (c0_i32_6 : BitVec 32) : Fin 2 → Nat :=
  let arg0 : BitVec 32 := BitVec.ofNat 32 (i 0).val
  let c4_i32 : BitVec 32 := 4#32
  let v12 : BitVec 32 := Scalar.muli arg0 c4_i32
  let c128_i32 : BitVec 32 := 128#32
  let v13 : BitVec 32 := Scalar.muli v12 c128_i32
  let v14 : BitVec 32 := Scalar.addi v13 c0_i32_6
  let v15 : Index := Scalar.indexCast v14
  let c0_7 : Index := 0#32
  ![v15.toNat, 0]
def k0_cond2 (i : grid0.Coords) : BitVec 1 :=
  let arg0 : BitVec 32 := BitVec.ofNat 32 (i 0).val
  let c28_i32_0 : BitVec 32 := 28#32
  let v3 : BitVec 1 := Scalar.cmpi .sge arg0 c28_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c27_i32 : BitVec 32 := 27#32
  let v0 : BitVec 32 := Scalar.minsi arg0 c27_i32
  let c4_i32 : BitVec 32 := 4#32
  let v1 : BitVec 32 := Scalar.muli v0 c4_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c27_i32 : BitVec 32 := 27#32
  let v0 : BitVec 32 := Scalar.minsi arg0 c27_i32
  let c4_i32 : BitVec 32 := 4#32
  let v1 : BitVec 32 := Scalar.muli v0 c4_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c27_i32 : BitVec 32 := 27#32
  let v0 : BitVec 32 := Scalar.minsi arg0 c27_i32
  let c4_i32 : BitVec 32 := 4#32
  let v1 : BitVec 32 := Scalar.muli v0 c4_i32
  let c2_i32 : BitVec 32 := 2#32
  let v2 : BitVec 32 := Scalar.addi v1 c2_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c27_i32 : BitVec 32 := 27#32
  let v0 : BitVec 32 := Scalar.minsi arg0 c27_i32
  let c4_i32 : BitVec 32 := 4#32
  let v1 : BitVec 32 := Scalar.muli v0 c4_i32
  let c3_i32 : BitVec 32 := 3#32
  let v2 : BitVec 32 := Scalar.addi v1 c3_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c4_i32 : BitVec 32 := 4#32
  let v2 : BitVec 32 := Scalar.muli v1 c4_i32
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c4_i32 : BitVec 32 := 4#32
  let v2 : BitVec 32 := Scalar.muli v1 c4_i32
  let c1_i32 : BitVec 32 := 1#32
  let v3 : BitVec 32 := Scalar.addi v2 c1_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c4_i32 : BitVec 32 := 4#32
  let v2 : BitVec 32 := Scalar.muli v1 c4_i32
  let c2_i32 : BitVec 32 := 2#32
  let v3 : BitVec 32 := Scalar.addi v2 c2_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c4_i32 : BitVec 32 := 4#32
  let v2 : BitVec 32 := Scalar.muli v1 c4_i32
  let c3_i32 : BitVec 32 := 3#32
  let v3 : BitVec 32 := Scalar.addi v2 c3_i32
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x14336 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x14336 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x14336 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x14336 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x4x4096_S32x4096 : S8x4x4096.ShapeCasts S32x4096
  transposes_S32x4096_S4096x32_1_0 : S32x4096.Transposes [1, 0] S4096x32
  transposes_S4096x32_S32x4096_1_0 : S4096x32.Transposes [1, 0] S32x4096
  shapeCasts_S32x4096_S8x4x4096 : S32x4096.ShapeCasts S8x4x4096
  inb_S128x4096_S128x4096_0_0 : ∀ a, (![0, 0] : Fin 2 → Nat) a + S128x4096.size a ≤ S128x4096.size a
  h_S128x4096 : 0 < S128x4096.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  h_S128x32 : 0 < S128x32.numel
  shapeCasts_S128x32_S128x32 : S128x32.ShapeCasts S128x32
  inb_S64x14336_S64x14336_0_0 : ∀ a, (![0, 0] : Fin 2 → Nat) a + S64x14336.size a ≤ S64x14336.size a
  h_S64x14336 : 0 < S64x14336.numel
  inb_S14336x32_S14336x32_0_0 : ∀ a, (![0, 0] : Fin 2 → Nat) a + S14336x32.size a ≤ S14336x32.size a
  h_S14336x32 : 0 < S14336x32.numel
  inb_S256x32_S64x32_0_0 : ∀ a, (![0, 0] : Fin 2 → Nat) a + S64x32.size a ≤ S256x32.size a
  h_S64x32 : 0 < S64x32.numel
  inb_S256x32_S64x32_64_0 : ∀ a, (![64, 0] : Fin 2 → Nat) a + S64x32.size a ≤ S256x32.size a
  inb_S256x32_S64x32_128_0 : ∀ a, (![128, 0] : Fin 2 → Nat) a + S64x32.size a ≤ S256x32.size a
  inb_S256x32_S64x32_192_0 : ∀ a, (![192, 0] : Fin 2 → Nat) a + S64x32.size a ≤ S256x32.size a
  dot_S128x4096_S4096x32_S128x32_1_0_0_1_n_n_wf : DotDims.WF S128x4096 S4096x32 S128x32 [1] [0] [0] [1] [] []
  dot_S64x14336_S14336x32_S64x32_1_0_0_1_n_n_wf : DotDims.WF S64x14336 S14336x32 S64x32 [1] [0] [0] [1] [] []
  hrank0 : 0 < grid0.rank
  k0_off1_inb : ∀ i : grid0.Coords, ∀ (k0_h1 : k0_cond1 i = 1#1), ∀ (r : Fin 4), ∀ a, (k0_off1 i (BitVec.ofNat 32 (128 * r.val))) a + S128x32.size a ≤ S14336x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S4096x32.size a
  hwx0_0 : ∀ i : grid0.Coords, EltTy.bits .f32 = 32 ∨ (Rect.block (s := S4096x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S14336x4096.size a
  hwx0_1 : ∀ i : grid0.Coords, EltTy.bits .f32 = 32 ∨ (Rect.block (s := S14336x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S14336x4096.size a
  hwx0_2 : ∀ i : grid0.Coords, EltTy.bits .f32 = 32 ∨ (Rect.block (s := S14336x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S14336x4096.size a
  hwx0_3 : ∀ i : grid0.Coords, EltTy.bits .f32 = 32 ∨ (Rect.block (s := S14336x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S14336x4096.size a
  hwx0_4 : ∀ i : grid0.Coords, EltTy.bits .f32 = 32 ∨ (Rect.block (s := S14336x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x14336.size a ≤ S4096x14336.size a
  hwx0_5 : ∀ i : grid0.Coords, EltTy.bits .f32 = 32 ∨ (Rect.block (s := S4096x14336) S64x14336.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x14336.size a ≤ S4096x14336.size a
  hwx0_6 : ∀ i : grid0.Coords, EltTy.bits .f32 = 32 ∨ (Rect.block (s := S4096x14336) S64x14336.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x14336.size a ≤ S4096x14336.size a
  hwx0_7 : ∀ i : grid0.Coords, EltTy.bits .f32 = 32 ∨ (Rect.block (s := S4096x14336) S64x14336.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x14336.size a ≤ S4096x14336.size a
  hwx0_8 : ∀ i : grid0.Coords, EltTy.bits .f32 = 32 ∨ (Rect.block (s := S4096x14336) S64x14336.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x32.size a ≤ S4096x32.size a
  hwx0_9 : ∀ i : grid0.Coords, EltTy.bits .f32 = 32 ∨ (Rect.block (s := S4096x32) S256x32.size (cc0_transform_9 i) (hinb0_9 i)).WholeWords (EltTy.packing .f32)

variable [Facts₀]

def dot_S128x4096_S4096x32_S128x32_1_0_0_1_n_n : DotDims S128x4096 S4096x32 S128x32 where
  lhsContracting := [1]
  rhsContracting := [0]
  lhsNonContracting := [0]
  rhsNonContracting := [1]
  lhsBatch := []
  rhsBatch := []
  wf := dot_S128x4096_S4096x32_S128x32_1_0_0_1_n_n_wf
def dot_S64x14336_S14336x32_S64x32_1_0_0_1_n_n : DotDims S64x14336 S14336x32 S64x32 where
  lhsContracting := [1]
  rhsContracting := [0]
  lhsNonContracting := [0]
  rhsNonContracting := [1]
  lhsBatch := []
  rhsBatch := []
  wf := dot_S64x14336_S14336x32_S64x32_1_0_0_1_n_n_wf

abbrev win0_0 : Pipeline.Window sig grid0 :=
  Pipeline.Window.ofSpec (Memref.whole main_call0_v1) S4096x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x14336.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S64x14336.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S64x14336.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S64x14336.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v2) S256x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8x4x4096 : Shape := ⟨3, ![8, 4, 4096]⟩
abbrev S14336x4096 : Shape := ⟨2, ![14336, 4096]⟩
abbrev S4096x14336 : Shape := ⟨2, ![4096, 14336]⟩
abbrev S8x4x14336 : Shape := ⟨3, ![8, 4, 14336]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x4x4096, .f32⟩
  | .hbm, ⟨1, _⟩ => ⟨S14336x4096, .f32⟩
  | .hbm, ⟨2, _⟩ => ⟨S4096x14336, .f32⟩
  | .hbm, ⟨3, _⟩ => ⟨S8x4x14336, .f32⟩
  | .hbm, ⟨4, _⟩ => ⟨S_, .f32⟩
  | .hbm, ⟨5, _⟩ => ⟨S8x4x14336, .f32⟩
  | .hbm, ⟨6, _⟩ => ⟨S8x4x14336, .f32⟩
  | .hbm, ⟨7, _⟩ => ⟨S8x4x4096, .f32⟩
  | _, _ => ⟨S8x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S8x4x14336 : S_.BroadcastsInDim S8x4x14336 (![] : Fin 0 → Fin S8x4x14336.rank)
  dot_S8x4x4096_S14336x4096_S8x4x14336_2_1_01_0_n_n_wf : DotDims.WF S8x4x4096 S14336x4096 S8x4x14336 [2] [1] [0, 1] [0] [] []
  dot_S8x4x14336_S4096x14336_S8x4x4096_2_1_01_0_n_n_wf : DotDims.WF S8x4x14336 S4096x14336 S8x4x4096 [2] [1] [0, 1] [0] [] []

variable [Facts₀]

def dot_S8x4x4096_S14336x4096_S8x4x14336_2_1_01_0_n_n : DotDims S8x4x4096 S14336x4096 S8x4x14336 where
  lhsContracting := [2]
  rhsContracting := [1]
  lhsNonContracting := [0, 1]
  rhsNonContracting := [0]
  lhsBatch := []
  rhsBatch := []
  wf := dot_S8x4x4096_S14336x4096_S8x4x14336_2_1_01_0_n_n_wf
def dot_S8x4x14336_S4096x14336_S8x4x4096_2_1_01_0_n_n : DotDims S8x4x14336 S4096x14336 S8x4x4096 where
  lhsContracting := [2]
  rhsContracting := [1]
  lhsNonContracting := [0, 1]
  rhsNonContracting := [0]
  lhsBatch := []
  rhsBatch := []
  wf := dot_S8x4x14336_S4096x14336_S8x4x4096_2_1_01_0_n_n_wf

class Facts : Prop extends Facts₀ where

variable [Facts]
-- ==== Proof.BitsBody.lean ====
/-
  The kernel body at one grid point, in its two phases, as two triples over explicit contents.

  The kernel computes relu(W1 · xᵀ) into a scratch h of 14336 rows during the first 28 grid points
  (four blocks of 128 rows of W1 per point), then W2 · h during the last 16 (four blocks of 64 rows of
  W2 per point, written into the 256-row output block). A point of the first phase overwrites four
  row-blocks of the scratch and touches nothing else; a point of the second reads the whole scratch and
  fills the output block with four pieces that tile it.
-/
import proofs.«168719_g47425028882858_cont_8to1c4_122_16_alg».proof.Proof.Gen.Kernel.Launch
import proofs.«168719_g47425028882858_cont_8to1c4_122_16_alg».proof.Proof.Gen.Kernel.Skeleton
import proofs.«168719_g47425028882858_cont_8to1c4_122_16_alg».proof.Proof.Gen.Kernel.Points
import Idealize.ShloMosaic.Lib.Pipeline.Value
import Idealize.ShloMosaic.Lib.Ring
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however they are spelt. -/
theorem zero2 : (![0, 0] : Fin 2 → ℕ) = fun _ => 0 := by funext a; fin_cases a <;> rfl

/-- What a point of the first phase stores into the scratch, last store first: row-block j (128 rows, from row
    512·t + 128·j) receives relu(W1 block j · xᵀ). -/
def hiddenPieces (i : grid0.Coords) (h1 : k0_cond1 i = 1#1) (x1 : Vec F S4096x32 .f32) (x2 x3 x4 x5 : Vec F S128x4096 .f32) :
    List (View.Piece (Elt F) S14336x32 .f32) :=
  [⟨Rect.unit (s := S14336x32) (k0_off1 i 384#32) S128x32.size (k0_off1_inb i h1 3), k0_pay2 x5 x1⟩,
   ⟨Rect.unit (s := S14336x32) (k0_off1 i 256#32) S128x32.size (k0_off1_inb i h1 2), k0_pay1 (k0_pay9 x4 x1)⟩,
   ⟨Rect.unit (s := S14336x32) (k0_off1 i 128#32) S128x32.size (k0_off1_inb i h1 1), k0_pay8 x3 x1⟩,
   ⟨Rect.unit (s := S14336x32) (k0_off1 i 0#32) S128x32.size (k0_off1_inb i h1 0), k0_pay7 x2 x1⟩]

set_option maxHeartbeats 1600000 in
/-- FIRST PHASE. With xᵀ and the four W1 blocks in their buffers and the scratch at any contents, the body stores its
    four pieces into the scratch and leaves every input as it was. -/
theorem run_first (c : Dev nD) (i : grid0.Coords) (arg1 : Memref sig .tc .vmem S4096x32 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S64x14336 .f32) (harg6 : arg6.IsWhole) (arg7 : Memref sig .tc .vmem S64x14336 .f32) (harg7 : arg7.IsWhole) (arg8 : Memref sig .tc .vmem S64x14336 .f32) (harg8 : arg8.IsWhole) (arg9 : Memref sig .tc .vmem S64x14336 .f32) (harg9 : arg9.IsWhole) (arg10 : Memref sig .tc .vmem S256x32 .f32) (harg10 : arg10.IsWhole) (arg11 : Memref sig .tc .vmem S14336x32 .f32) (harg11 : arg11.IsWhole)
    (hc1 : k0_cond1 i = 1#1) (hc2 : ¬ k0_cond2 i = 1#1)
    (x1 : Vec F S4096x32 .f32) (x2 x3 x4 x5 : Vec F S128x4096 .f32) (xs : Vec F S14336x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg11 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg11 fullShare
                (arg11.view.read (Elt F) (arg11.view.writes (Elt F) (harg11.unread xs) (hiddenPieces i hc1 x1 x2 x3 x4 x5)))) -∗ K ⟨⟩))
      ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11) K := by
  simp only [cc0__ffn_kernel_eq_skeleton]; unfold cc0__ffn_kernel_skel
  unfold owns
  iintro ⟨⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf1; obtain rfl := harg2.eq_unread hf2; obtain rfl := harg3.eq_unread hf3
  obtain rfl := harg4.eq_unread hf4; obtain rfl := harg5.eq_unread hf5; obtain rfl := harg11.eq_unread hfs
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact HS
  ipureintro
  sl_unfold_run_names
  simp only [View.readAt_eq_ld, Memref.IsWhole.read_unread, View.ld_unit_zero (S := S128x4096) zero2, View.ld_unit_zero (S := S4096x32) zero2]
  rfl

/-- What a point of the second phase stores into the output block, last store first: rows 64·j … 64·j + 63 receive
    W2 block j · h. -/
def outPieces (x6 x7 x8 x9 : Vec F S64x14336 .f32) (xs : Vec F S14336x32 .f32) : List (View.Piece (Elt F) S256x32 .f32) :=
  [⟨Rect.unit (s := S256x32) ![192, 0] S64x32.size inb_S256x32_S64x32_192_0, k0_pay6 x9 xs⟩,
   ⟨Rect.unit (s := S256x32) ![128, 0] S64x32.size inb_S256x32_S64x32_128_0, k0_pay5 x8 xs⟩,
   ⟨Rect.unit (s := S256x32) ![64, 0] S64x32.size inb_S256x32_S64x32_64_0, k0_pay4 x7 xs⟩,
   ⟨Rect.unit (s := S256x32) ![0, 0] S64x32.size inb_S256x32_S64x32_0_0, k0_pay3 x6 xs⟩]

set_option maxHeartbeats 1600000 in
/-- SECOND PHASE. With the four W2 blocks in their buffers, the scratch at h and the output block's buffer at any
    contents, the body fills the output block with its four pieces and leaves the inputs and the scratch as they were. -/
theorem run_second (c : Dev nD) (i : grid0.Coords) (arg1 : Memref sig .tc .vmem S4096x32 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S64x14336 .f32) (harg6 : arg6.IsWhole) (arg7 : Memref sig .tc .vmem S64x14336 .f32) (harg7 : arg7.IsWhole) (arg8 : Memref sig .tc .vmem S64x14336 .f32) (harg8 : arg8.IsWhole) (arg9 : Memref sig .tc .vmem S64x14336 .f32) (harg9 : arg9.IsWhole) (arg10 : Memref sig .tc .vmem S256x32 .f32) (harg10 : arg10.IsWhole) (arg11 : Memref sig .tc .vmem S14336x32 .f32) (harg11 : arg11.IsWhole)
    (hc1 : ¬ k0_cond1 i = 1#1) (hc2 : k0_cond2 i = 1#1)
    (x6 x7 x8 x9 : Vec F S64x14336 .f32) (xs : Vec F S14336x32 .f32)
    (E : Set ℕ) (K : PUnit → sProp 𝕄) :
    iprop(owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg11 fullShare xs ∗ (∃ d, owns (c : Thread nD τ) arg10 fullShare d)
        ∗ (iprop(owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg11 fullShare xs
            ∗ owns (c : Thread nD τ) arg10 fullShare (View.canon (outPieces x6 x7 x8 x9 xs))) -∗ K ⟨⟩))
      ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11) K := by
  simp only [cc0__ffn_kernel_eq_skeleton]; unfold cc0__ffn_kernel_skel
  unfold owns
  iintro ⟨⟨%f6, %hf6, H6⟩, ⟨%f7, %hf7, H7⟩, ⟨%f8, %hf8, H8⟩, ⟨%f9, %hf9, H9⟩, ⟨%fs, %hfs, HS⟩, ⟨%d10, %f10, -, H10⟩, Hk⟩
  obtain rfl := harg6.eq_unread hf6; obtain rfl := harg7.eq_unread hf7; obtain rfl := harg8.eq_unread hf8
  obtain rfl := harg9.eq_unread hf9; obtain rfl := harg11.eq_unread hfs
  sl_exec (disch := first | exact hc1 | exact hc2)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [HS]
  · iexists _; isplitr; · ipureintro; exact harg11.read_unread _
    iexact HS
  iexists _; isplitr
  swap; · iexact H10
  ipureintro
  simp only [View.readAt_eq_ld, Memref.IsWhole.read_unread, View.ld_unit_zero (S := S64x14336) zero2, View.ld_unit_zero (S := S14336x32) zero2]
  exact View.read_writes_eq_canon arg10.view f10 (outPieces x6 x7 x8 x9 xs)
    (View.cover_of_tiledL (outPieces x6 x7 x8 x9 xs) S64x32.size (by sl_kernel_rfl))

end Cert.Kernel.Hand

end
-- ==== Proof.BitsData.lean ====
/-
  The pipeline's proof data: what each window's buffer and the scratch hold, point by point.
-/
import proofs.«168719_g47425028882858_cont_8to1c4_122_16_alg».proof.Proof.Gen.Kernel.Launch
import proofs.«168719_g47425028882858_cont_8to1c4_122_16_alg».proof.Proof.Gen.Kernel.Skeleton
import proofs.«168719_g47425028882858_cont_8to1c4_122_16_alg».proof.Proof.Gen.Kernel.Points
import proofs.«168719_g47425028882858_cont_8to1c4_122_16_alg».proof.Proof.BitsBody
import Idealize.ShloMosaic.Lib.Pipeline.Value
import Idealize.ShloMosaic.Lib.Ring
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s unscoped buffers when the region is entered: the launch contents after the two host operations before it
    (x reshaped to 32 rows, then transposed). -/
abbrev Vent (c : Dev nD) : Valuation τ sig (Elt F) := StableHlo.after hostOps0 (fun b => m (c, b))
/-- The same read at a TensorCore reference. -/
abbrev V (c : Dev nD) (b : Ref sig .tc) : Buf (Elt F) ((c : Thread nD τ).loc b) := Vent m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two phases over the grid -/

/-- The first phase is the points below 28, -/
theorem hcond1 : ∀ t : Fin cfg0.N, k0_cond1 (grid0.coords t) = 1#1 ↔ t.val < 28 :=
  (by decide +kernel : ∀ t : Fin grid0.N, k0_cond1 (grid0.coords t) = 1#1 ↔ t.val < 28)
/-- the second the points from 28 on. -/
theorem hcond2 : ∀ t : Fin cfg0.N, k0_cond2 (grid0.coords t) = 1#1 ↔ 28 ≤ t.val :=
  (by decide +kernel : ∀ t : Fin grid0.N, k0_cond2 (grid0.coords t) = 1#1 ↔ 28 ≤ t.val)

/-- At point `t` of the first phase the r-th store's row-block starts at row 512·t + 128·r. -/
theorem off_rows : ∀ t : Fin cfg0.N, t.val < 28 → ∀ r : Fin 4,
    k0_off1 (grid0.coords t) (BitVec.ofNat 32 (128 * r.val)) = ![512 * t.val + 128 * r.val, 0] :=
  (by decide +kernel : ∀ t : Fin grid0.N, t.val < 28 → ∀ r : Fin 4,
    k0_off1 (grid0.coords t) (BitVec.ofNat 32 (128 * r.val)) = ![512 * t.val + 128 * r.val, 0])

/-! ## The hidden activations, in closed form -/

theorem row_lt (y : S14336x32.Idx) : (y 0).val < 14336 := (y 0).isLt
theorem col_lt (y : S14336x32.Idx) : (y 1).val < 32 := (y 1).isLt

/-- The point of the first phase that writes row `y 0` of the scratch: rows 512·t … 512·t + 511 are point t's. -/
def rowPoint (y : S14336x32.Idx) : Fin cfg0.N :=
  ⟨(y 0).val / 512, by have := row_lt y; have hN : cfg0.N = 44 := N_0; omega⟩
theorem rowPoint_lt (y : S14336x32.Idx) : (rowPoint y).val < 28 := by
  have := row_lt y; show (y 0).val / 512 < 28; omega

/-- What the first phase leaves in the scratch: at row `y 0` what the point that owns the row stored there. A function of
    the arrays alone (xᵀ and the rows of W1), whatever the scratch held before. -/
def Hfun (c : Dev nD) : Vec F S14336x32 .f32 := fun y =>
  View.canon (hiddenPieces (grid0.coords (rowPoint y)) ((hcond1 (rowPoint y)).mpr (rowPoint_lt y))
    (iblk m c 0 (rowPoint y)) (iblk m c 1 (rowPoint y)) (iblk m c 2 (rowPoint y)) (iblk m c 3 (rowPoint y)) (iblk m c 4 (rowPoint y))) y

/-- `Hfun` at a row of point `p`'s. -/
theorem Hfun_eq (c : Dev nD) (p : Fin cfg0.N) (hp : p.val < 28) (y : S14336x32.Idx) (hy : (y 0).val / 512 = p.val) :
    Hfun m c y = View.canon (hiddenPieces (grid0.coords p) ((hcond1 p).mpr hp)
      (iblk m c 0 p) (iblk m c 1 p) (iblk m c 2 p) (iblk m c 3 p) (iblk m c 4 p)) y := by
  obtain rfl : rowPoint y = p := Fin.ext hy
  rfl

/-- The scratch operand, a whole scoped buffer of the kernel's own. -/
abbrev scM : Memref sig .tc .vmem S14336x32 .f32 := Memref.whole cc0_scratch0
abbrev hscM : (scM).IsWhole := Memref.isWhole_whole _

/-- Which of a first-phase point's four row-blocks holds a row of that point's. -/
theorem mem_hidden_piece (t : Fin cfg0.N) (ht : t.val < 28) (y : S14336x32.Idx) (r : Fin 4)
    (hlo : 512 * t.val + 128 * r.val ≤ (y 0).val) (hhi : (y 0).val < 512 * t.val + 128 * r.val + 128) :
    y ∈ (Rect.unit (s := S14336x32) (k0_off1 (grid0.coords t) (BitVec.ofNat 32 (128 * r.val))) S128x32.size
      (k0_off1_inb (grid0.coords t) ((hcond1 t).mpr ht) r)).set := by
  rw [Rect.mem_set_unit]
  intro a
  rw [off_rows t ht r]
  have hc := col_lt y
  match a with
  | ⟨0, _⟩ => exact ⟨hlo, hhi⟩
  | ⟨1, _⟩ => exact ⟨Nat.zero_le _, by show (y 1).val < 0 + 32; omega⟩

/-- A row below the point's first row is in none of them. -/
theorem not_mem_hidden_piece (t : Fin cfg0.N) (ht : t.val < 28) (y : S14336x32.Idx) (r : Fin 4)
    (hlow : (y 0).val < 512 * t.val) :
    y ∉ (Rect.unit (s := S14336x32) (k0_off1 (grid0.coords t) (BitVec.ofNat 32 (128 * r.val))) S128x32.size
      (k0_off1_inb (grid0.coords t) ((hcond1 t).mpr ht) r)).set := by
  rw [Rect.mem_set_unit]
  intro h
  have h0 := (h 0).1
  rw [off_rows t ht r] at h0
  have : 512 * t.val + 128 * r.val ≤ (y 0).val := h0
  omega

/-! ## One step of the first phase -/

/-- THE STEP. If the scratch holds the hidden activations on the rows below point `t`'s, then after point `t`'s four stores
    it holds them on the rows below point `t + 1`'s: a row of an earlier point's is under none of the four pieces and keeps
    its contents; a row of this point's is under one of them and reads that piece's payload, which is what `Hfun` is there. -/
theorem hidden_step (c : Dev nD) (t : Fin cfg0.N) (ht : t.val < 28) (s : Vec F S14336x32 .f32)
    (hs : ∀ y : S14336x32.Idx, (y 0).val < 512 * t.val → s y = Hfun m c y)
    (y : S14336x32.Idx) (hy : (y 0).val < 512 * (t.val + 1)) :
    scM.view.read (Elt F) (scM.view.writes (Elt F) (hscM.unread s)
      (hiddenPieces (grid0.coords t) ((hcond1 t).mpr ht) (iblk m c 0 t) (iblk m c 1 t) (iblk m c 2 t) (iblk m c 3 t) (iblk m c 4 t))) y
      = Hfun m c y := by
  by_cases hlow : (y 0).val < 512 * t.val
  · rw [View.read_writes_apply_of_forall_not_mem scM.view _ y _ (fun p hp => ?_), hscM.read_unread]
    · exact hs y hlow
    · unfold hiddenPieces at hp
      simp only [List.mem_cons, List.mem_nil_iff, or_false] at hp
      rcases hp with rfl | rfl | rfl | rfl
      · exact not_mem_hidden_piece t ht y 3 hlow
      · exact not_mem_hidden_piece t ht y 2 hlow
      · exact not_mem_hidden_piece t ht y 1 hlow
      · exact not_mem_hidden_piece t ht y 0 hlow
  · rw [Hfun_eq m c t ht y (by omega)]
    refine View.read_writes_apply_eq_canon scM.view _ y _ ?_
    unfold hiddenPieces
    have h4 : (y 0).val < 512 * t.val + 128 ∨ (512 * t.val + 128 ≤ (y 0).val ∧ (y 0).val < 512 * t.val + 256)
        ∨ (512 * t.val + 256 ≤ (y 0).val ∧ (y 0).val < 512 * t.val + 384) ∨ 512 * t.val + 384 ≤ (y 0).val := by omega
    rcases h4 with h | ⟨h, h'⟩ | ⟨h, h'⟩ | h
    · exact ⟨_, List.mem_cons_of_mem _ (List.mem_cons_of_mem _ (List.mem_cons_of_mem _ List.mem_cons_self)),
        mem_hidden_piece t ht y 0 (by omega) (by omega)⟩
    · exact ⟨_, List.mem_cons_of_mem _ (List.mem_cons_of_mem _ List.mem_cons_self), mem_hidden_piece t ht y 1 (by omega) (by omega)⟩
    · exact ⟨_, List.mem_cons_of_mem _ List.mem_cons_self, mem_hidden_piece t ht y 2 (by omega) (by omega)⟩
    · exact ⟨_, List.mem_cons_self, mem_hidden_piece t ht y 3 (by omega) (by omega)⟩

/-! ## The invariant and the proof data -/

/-- The region invariant before position `n`: the scratch at contents that are the hidden activations on the rows the
    points before `n` have written (all of them once the first phase is over). -/
def PhiS (c : Dev nD) (n : ℕ) : sProp 𝕄 :=
  iprop(∃ s : Vec F S14336x32 .f32, owns (c : Thread nD τ) scM fullShare s
    ∗ ⌜∀ y : S14336x32.Idx, (y 0).val < 512 * min n 28 → s y = Hfun m c y⌝)

/-- The proof data of the one pipeline on core `c`: the arrays as the region finds them; after the body each input's
    buffer at its block, the output's at four row-blocks of W2 times the hidden activations; the invariant above;
    nothing owed; W1 and W2 each read by four windows, a quarter of the full share to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (outPieces (iblk m c 5 t) (iblk m c 6 t) (iblk m c 7 t) (iblk m c 8 t) (Hfun m c))
    | ⟨_ + 10, h⟩ => absurd h (Nat.not_lt.2 (Nat.le_add_left _ _))
  Φ t := PhiS m c t.val
  q w := match w with
    | ⟨0, _⟩ => fullShare
    | ⟨1, _⟩ => fullShare.left.left
    | ⟨2, _⟩ => fullShare.left.right
    | ⟨3, _⟩ => fullShare.right.left
    | ⟨4, _⟩ => fullShare.right.right
    | ⟨5, _⟩ => fullShare.left.left
    | ⟨6, _⟩ => fullShare.left.right
    | ⟨7, _⟩ => fullShare.right.left
    | ⟨8, _⟩ => fullShare.right.right
    | ⟨9, _⟩ => fullShare
    | ⟨_ + 10, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) :
    (dats m 0 c).after 9 t = View.canon (outPieces (iblk m c 5 t) (iblk m c 6 t) (iblk m c 7 t) (iblk m c 8 t) (Hfun m c)) := by
  dsimp only [dats]

/-! ## An input's buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

/-! ## The output window over the grid -/

/-- In the first phase the body stores nothing into the output block: the window is idle there, -/
theorem idle9 : ∀ t : Fin cfg0.N, t.val < 28 → cfg0.idle 9 (grid0.coords t) = true :=
  (by decide +kernel : ∀ t : Fin grid0.N, t.val < 28 → cfg0.idle 9 (grid0.coords t) = true)
/-- and is not written back; -/
theorem noflush9 : ∀ t : Fin cfg0.N, t.val < 28 → (cfg0.win 9).flush t = false :=
  (by decide +kernel : ∀ t : Fin grid0.N, t.val < 28 → (cfg0.win 9).flush t = false)
/-- in the second it is live. -/
theorem live9 : ∀ t : Fin cfg0.N, 28 ≤ t.val → cfg0.idle 9 (grid0.coords t) = false :=
  (by decide +kernel : ∀ t : Fin grid0.N, 28 ≤ t.val → cfg0.idle 9 (grid0.coords t) = false)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) :
    (dats m 0 c).leavesExact 0 t = owns (c : Thread nD τ) (st0_0 t) fullShare (iblk m c 0 t) := by
  rw [← after0]
theorem leaves1 (c : Dev nD) (t : Fin cfg0.N) :
    (dats m 0 c).leavesExact 1 t = owns (c : Thread nD τ) (st0_1 t) fullShare (iblk m c 1 t) := by
  rw [← after1]
theorem leaves2 (c : Dev nD) (t : Fin cfg0.N) :
    (dats m 0 c).leavesExact 2 t = owns (c : Thread nD τ) (st0_2 t) fullShare (iblk m c 2 t) := by
  rw [← after2]
theorem leaves3 (c : Dev nD) (t : Fin cfg0.N) :
    (dats m 0 c).leavesExact 3 t = owns (c : Thread nD τ) (st0_3 t) fullShare (iblk m c 3 t) := by
  rw [← after3]
theorem leaves4 (c : Dev nD) (t : Fin cfg0.N) :
    (dats m 0 c).leavesExact 4 t = owns (c : Thread nD τ) (st0_4 t) fullShare (iblk m c 4 t) := by
  rw [← after4]
theorem leaves5 (c : Dev nD) (t : Fin cfg0.N) :
    (dats m 0 c).leavesExact 5 t = owns (c : Thread nD τ) (st0_5 t) fullShare (iblk m c 5 t) := by
  rw [← after5]
theorem leaves6 (c : Dev nD) (t : Fin cfg0.N) :
    (dats m 0 c).leavesExact 6 t = owns (c : Thread nD τ) (st0_6 t) fullShare (iblk m c 6 t) := by
  rw [← after6]
theorem leaves7 (c : Dev nD) (t : Fin cfg0.N) :
    (dats m 0 c).leavesExact 7 t = owns (c : Thread nD τ) (st0_7 t) fullShare (iblk m c 7 t) := by
  rw [← after7]
theorem leaves8 (c : Dev nD) (t : Fin cfg0.N) :
    (dats m 0 c).leavesExact 8 t = owns (c : Thread nD τ) (st0_8 t) fullShare (iblk m c 8 t) := by
  rw [← after8]

set_option maxHeartbeats 4000000 in
/-- The body at any point. Every input's buffer holds its block. In the first phase the run stores the point's four
    row-blocks into the scratch, which extends the rows the invariant speaks of by this point's (`hidden_step`), and hands the
    output block's buffer back untouched; in the second the scratch holds all the hidden activations, the run fills the
    output block with its four pieces and changes nothing else. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8,
    leaves0, leaves1, leaves2, leaves3, leaves4, leaves5, leaves6, leaves7, leaves8]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 44 := lt_of_lt_of_eq t.isLt (show cfg0.N = 44 from N_0)
  by_cases ht : t.val < 28
  · rw [Dat.leavesExact_idle (dats m 0 c) 9 t (idle9 t ht) (noflush9 t ht)]
    iintro ⟨⟨%s, HS, %hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) scM hscM
      ((hcond1 t).mpr ht) (fun h => absurd ((hcond2 t).mp h) (by omega))
      (iblk m c 0 t) (iblk m c 1 t) (iblk m c 2 t) (iblk m c 3 t) (iblk m c 4 t) s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro
      intro y hy
      exact hidden_step m c t ht s (fun y hy' => hs y (by rw [Nat.min_eq_left (by omega)]; exact hy')) y
        (by rw [Nat.min_eq_left (by omega)] at hy; exact hy)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · rw [show (dats m 0 c).leavesExact 9 t = owns (c : Thread nD τ) (st0_9 t) fullShare ((dats m 0 c).after 9 t) from by
      unfold Dat.leavesExact; rw [live9 t (by omega)], after9]
    iintro ⟨⟨%s, HS, %hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl : s = Hfun m c := funext fun y => hs y (by rw [Nat.min_eq_right (by omega)]; have := row_lt y; omega)
    iapply (run_second c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) scM hscM
      (fun h => absurd ((hcond1 t).mp h) ht) ((hcond2 t).mpr (by omega))
      (iblk m c 5 t) (iblk m c 6 t) (iblk m c 7 t) (iblk m c 8 t) (Hfun m c) Set.univ _)
    isplitl [H5]; · iexact H5
    isplitl [H6]; · iexact H6
    isplitl [H7]; · iexact H7
    isplitl [H8]; · iexact H8
    isplitl [HS]; · iexact HS
    isplitl [H9]; · iexists _; iexact H9
    iintro ⟨H5, H6, H7, H8, HS, H9⟩
    isplitl [HS]
    · iexists _; isplitl [HS]; · iexact HS
      ipureintro
      intro y _
      rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsLaunch.lean ====
/-
  The launch: @main as a host segment, the kernel region, a host segment, and the run of the three.
-/
import proofs.«168719_g47425028882858_cont_8to1c4_122_16_alg».proof.Proof.Gen.Kernel.Launch
import proofs.«168719_g47425028882858_cont_8to1c4_122_16_alg».proof.Proof.Gen.Kernel.Skeleton
import proofs.«168719_g47425028882858_cont_8to1c4_122_16_alg».proof.Proof.Gen.Kernel.Points
import proofs.«168719_g47425028882858_cont_8to1c4_122_16_alg».proof.Proof.BitsData
import Idealize.ShloMosaic.Lib.Pipeline.Value
import Idealize.ShloMosaic.Lib.Ring
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's vocabulary -/

/-- The pipeline library's algebra is the whole user component: the kernel has no semaphore of its own. -/
abbrev EP : Emb (UR sig nD τ) (MT nD τ sig Unit (Elt F) ℕ (UR sig nD τ) ℕ) := emb₁
/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: that the core owes nothing. -/
abbrev R (c : Dev nD) : sProp 𝕄 := iprop(∃ W, owes (c : Thread nD τ) (0 : CellTallies nD τ sig Unit) W)
/-- Core `c`'s buffers at launch. -/
abbrev V₀ (c : Dev nD) : Valuation τ sig (Elt F) := fun b => m (c, b)

/-- One unscoped buffer of core `c`, whole at share `q`. -/
abbrev pt (c : Dev nD) (b : Ref sig .tc) (q : PosShare TreeShare) (f : Buf (Elt F) ((c : Thread nD τ).loc b)) : sProp 𝕄 :=
  ((c : Thread nD τ).loc b) ↦{q} f

/-- The core's unscoped buffers, one by one: @main's three arguments and the five values of the function it calls. -/
theorem ub_chain (c : Dev nD) (W : (b : Ref sig .tc) → Buf (Elt F) ((c : Thread nD τ).loc b)) :
    (unscopedBufs c W : sProp 𝕄)
      = iprop(pt c main_arg0 fullShare (W main_arg0) ∗ pt c main_arg1 fullShare (W main_arg1) ∗ pt c main_arg2 fullShare (W main_arg2) ∗ pt c main_call0_v0 fullShare (W main_call0_v0) ∗ pt c main_call0_v1 fullShare (W main_call0_v1) ∗ pt c main_call0_v2 fullShare (W main_call0_v2) ∗ pt c main_call0_v3 fullShare (W main_call0_v3) ∗ pt c main_v0 fullShare (W main_v0)) := by
  unfold unscopedBufs
  exact bigSep_eq_bigSepL_of_eq [main_arg0, main_arg1, main_arg2, main_call0_v0, main_call0_v1, main_call0_v2, main_call0_v3, main_v0] (by decide) (by decide) _

/-! ## The host operations around the region -/

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- BEFORE the region: x reshaped to 32 rows and transposed, over the unscoped buffers. -/
def seg0 : Pipeline.HostSeg (Name := ℕ) (U := UR sig nD τ) (pcfgs (F := F)) defs₀ Variants.none Lv lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The buffers when the region is left: the result's buffer at what the write-backs left there, every other as the
    region found it. -/
def Vmid (c : Dev nD) : Valuation τ sig (Elt F) :=
  Function.update (Vent m c) (Proc.devRef .tc main_call0_v2) ((dats m 0 c).arrAt 9 cfg0.N)

theorem Vmid_result (c : Dev nD) : Vmid m c (Proc.devRef .tc main_call0_v2) = (dats m 0 c).arrAt 9 cfg0.N := by
  unfold Vmid; exact Function.update_self _ _ _

theorem Vmid_of_ne (c : Dev nD) (b : Ref sig .tc) (h : b ≠ main_call0_v2) : Vmid m c (Proc.devRef .tc b) = V m c b := by
  unfold Vmid; exact Function.update_of_ne (StableHlo.devRef_ne_of_ne h) _ _

/-- AFTER the region: the result transposed back and reshaped to x's shape. -/
def seg1 : Pipeline.HostSeg (Name := ℕ) (U := UR sig nD τ) (pcfgs (F := F)) defs₀ Variants.none Lv lv :=
  Pipeline.HostSeg.ofOps _ _ _ _ _ (Pipeline.ucRefs τ sig) hostOps1
    (fun op h => Pipeline.sub_ucRefs op ((List.forall_iff_forall_mem.mp hostOps1_sub) op h)) hostOps1_fresh (Vmid m) R

/-- The buffers at the end. -/
abbrev Vfin (c : Dev nD) : Valuation τ sig (Elt F) := StableHlo.after hostOps1 (Vmid m c)

/-! ## The windows' arrays, one by one, at their shares -/

/-- The ten windows' arrays: xᵀ whole; W1 at four quarters, one per window on it; W2 likewise; the result whole. -/
theorem arrays_chain (c : Dev nD) (G : (w : Fin cfg0.W) → Buf (Elt F) ((cfg0.win w).arr.view.loc (c : Thread nD τ))) :
    ((dats m 0 c).arrays G : sProp 𝕄)
      = iprop(pt c main_call0_v1 fullShare (G 0) ∗ pt c main_arg1 fullShare.left.left (G 1) ∗ pt c main_arg1 fullShare.left.right (G 2) ∗ pt c main_arg1 fullShare.right.left (G 3) ∗ pt c main_arg1 fullShare.right.right (G 4) ∗ pt c main_arg2 fullShare.left.left (G 5) ∗ pt c main_arg2 fullShare.left.right (G 6) ∗ pt c main_arg2 fullShare.right.left (G 7) ∗ pt c main_arg2 fullShare.right.right (G 8) ∗ pt c main_call0_v2 fullShare (G 9)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ]
  rfl

theorem arrAt_in0 (c : Dev nD) (n : ℕ) : (dats m 0 c).arrAt 0 n = V m c main_call0_v1 :=
  ((dats m 0 c).arrAt_in 0 rfl n).trans (A_eq m c 0)
theorem arrAt_in1 (c : Dev nD) (n : ℕ) : (dats m 0 c).arrAt 1 n = V m c main_arg1 :=
  ((dats m 0 c).arrAt_in 1 rfl n).trans (A_eq m c 1)
theorem arrAt_in2 (c : Dev nD) (n : ℕ) : (dats m 0 c).arrAt 2 n = V m c main_arg1 :=
  ((dats m 0 c).arrAt_in 2 rfl n).trans (A_eq m c 2)
theorem arrAt_in3 (c : Dev nD) (n : ℕ) : (dats m 0 c).arrAt 3 n = V m c main_arg1 :=
  ((dats m 0 c).arrAt_in 3 rfl n).trans (A_eq m c 3)
theorem arrAt_in4 (c : Dev nD) (n : ℕ) : (dats m 0 c).arrAt 4 n = V m c main_arg1 :=
  ((dats m 0 c).arrAt_in 4 rfl n).trans (A_eq m c 4)
theorem arrAt_in5 (c : Dev nD) (n : ℕ) : (dats m 0 c).arrAt 5 n = V m c main_arg2 :=
  ((dats m 0 c).arrAt_in 5 rfl n).trans (A_eq m c 5)
theorem arrAt_in6 (c : Dev nD) (n : ℕ) : (dats m 0 c).arrAt 6 n = V m c main_arg2 :=
  ((dats m 0 c).arrAt_in 6 rfl n).trans (A_eq m c 6)
theorem arrAt_in7 (c : Dev nD) (n : ℕ) : (dats m 0 c).arrAt 7 n = V m c main_arg2 :=
  ((dats m 0 c).arrAt_in 7 rfl n).trans (A_eq m c 7)
theorem arrAt_in8 (c : Dev nD) (n : ℕ) : (dats m 0 c).arrAt 8 n = V m c main_arg2 :=
  ((dats m 0 c).arrAt_in 8 rfl n).trans (A_eq m c 8)
theorem arrAt_out0 (c : Dev nD) : (dats m 0 c).arrAt 9 0 = V m c main_call0_v2 := A_eq m c 9

theorem owes_in (c : Dev nD) (t : Fin (cfg0.N + 1)) : R c ⊢ ((dats m 0 c).owesAt () t : sProp 𝕄) := by
  unfold Pipeline.Dat.owesAt Pipeline.owesWithin
  iintro ⟨%W, HO⟩; iexists W; isplitr; · ipureintro; exact fun _ _ => Or.inl trivial
  iexact HO

theorem owes_out (c : Dev nD) (t : Fin (cfg0.N + 1)) : ((dats m 0 c).owesAt () t : sProp 𝕄) ⊢ R c := by
  unfold Pipeline.Dat.owesAt Pipeline.owesWithin
  iintro ⟨%W, -, HO⟩; iexists W; iexact HO

/-- A buffer held whole, split into four quarters, -/
theorem quarter (c : Dev nD) (b : Ref sig .tc) (f : Buf (Elt F) ((c : Thread nD τ).loc b)) :
    pt c b fullShare f ⊢ (iprop(pt c b fullShare.left.left f ∗ pt c b fullShare.left.right f ∗ pt c b fullShare.right.left f ∗ pt c b fullShare.right.right f) : sProp 𝕄) := by
  iintro H
  ihave H := (pointsTo_share (PosShare.mem_left_op_right fullShare)).1 $$ H
  icases H with ⟨Hl, Hr⟩
  ihave Hl := (pointsTo_share (PosShare.mem_left_op_right fullShare.left)).1 $$ Hl
  ihave Hr := (pointsTo_share (PosShare.mem_left_op_right fullShare.right)).1 $$ Hr
  icases Hl with ⟨Hll, Hlr⟩
  icases Hr with ⟨Hrl, Hrr⟩
  isplitl [Hll]; · iexact Hll
  isplitl [Hlr]; · iexact Hlr
  isplitl [Hrl]; · iexact Hrl
  iexact Hrr

/-- and put back together. -/
theorem unquarter (c : Dev nD) (b : Ref sig .tc) (f : Buf (Elt F) ((c : Thread nD τ).loc b)) :
    (iprop(pt c b fullShare.left.left f ∗ pt c b fullShare.left.right f ∗ pt c b fullShare.right.left f ∗ pt c b fullShare.right.right f) : sProp 𝕄) ⊢ pt c b fullShare f := by
  iintro ⟨Hll, Hlr, Hrl, Hrr⟩
  ihave Hl := (pointsTo_share (PosShare.mem_left_op_right fullShare.left)).2 $$ [Hll Hlr]
  · isplitl [Hll] <;> iassumption
  ihave Hr := (pointsTo_share (PosShare.mem_left_op_right fullShare.right)).2 $$ [Hrl Hrr]
  · isplitl [Hrl] <;> iassumption
  iapply (pointsTo_share (PosShare.mem_left_op_right fullShare)).2
  isplitl [Hl] <;> iassumption

/-! ## The region -/

/-- What the region leaves beside the arrays: the four unscoped buffers no window stages, as the region found them. -/
abbrev Zc (c : Dev nD) : sProp 𝕄 :=
  iprop(pt c main_arg0 fullShare (V m c main_arg0) ∗ pt c main_call0_v0 fullShare (V m c main_call0_v0)
    ∗ pt c main_call0_v3 fullShare (V m c main_call0_v3) ∗ pt c main_v0 fullShare (V m c main_v0))

set_option backward.isDefEq.respectTransparency.types false in
/-- THE REGION. Entered from what the first host segment left: xᵀ's buffer and the result's go to their windows whole,
    W1's and W2's each to their four windows a quarter apiece, the scratch to the invariant at whatever it holds, the other
    four buffers past the region. Left with every input as it was (the quarters put back together) and the result's
    buffer at what the write-backs left. -/
def reg0 : Pipeline.RegionSeg (pcfgs (F := F)) adm (dats m) () defs₀ Variants.none Lv lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lv lv 0 fun _ _ => rfl
  pre c := iprop(StableHlo.held (c : Thread nD τ) (Pipeline.ucRefs τ sig) (Vent m c) ∗ R c)
  post c := iprop(StableHlo.held (c : Thread nD τ) (Pipeline.ucRefs τ sig) (Vmid m c) ∗ R c)
  X _ := iprop(emp)
  Y _ := iprop(emp)
  Z c := Zc m c
  hentry c := by
    rw [show StableHlo.held (c : Thread nD τ) (Pipeline.ucRefs τ sig) (Vent m c) = unscopedBufs c (V m c) from (Pipeline.unscopedBufs_held c _).symm,
      ub_chain, arrays_chain]
    simp only [arrAt_in0, arrAt_in1, arrAt_in2, arrAt_in3, arrAt_in4, arrAt_in5, arrAt_in6, arrAt_in7, arrAt_in8, arrAt_out0]
    iintro ⟨⟨⟨Ha0, Ha1, Ha2, Hv0, Hv1, Hv2, Hv3, Hmv⟩, HO⟩, -, -⟩
    ihave Ha1 := (quarter c main_arg1 _) $$ Ha1
    ihave Ha2 := (quarter c main_arg2 _) $$ Ha2
    icases Ha1 with ⟨H1, H2, H3, H4⟩
    icases Ha2 with ⟨H5, H6, H7, H8⟩
    imodintro
    isplitl [Hv1 H1 H2 H3 H4 H5 H6 H7 H8 Hv2]
    · isplitl [Hv1]; · iexact Hv1
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact Hv2
    isplitr; · unfold Pipeline.prefHeld; rw [show (Finset.univ : Finset (Fin 0)) = ∅ from rfl, BI.bigSep_empty]; iempintro
    isplitl [HO]; · iapply (owes_in m c 0); iexact HO
    isplitr; · iempintro
    isplitl [Ha0]; · iexact Ha0
    isplitl [Hv0]; · iexact Hv0
    isplitl [Hv3]; · iexact Hv3
    iexact Hmv
  hin c := by
    rw [show (dats m 0 c).Φ 0 = PhiS m c 0 from rfl, scopedRest0_eq]; unfold PhiS
    iintro ⟨-, -, ⟨%f, Hs⟩⟩
    iexists (scM.view.read (Elt F) f)
    isplitl [Hs]
    · unfold owns; iexists f; isplitr; · ipureintro; rfl
      rw [hscM.set_eq_univ]; iexact Hs
    ipureintro
    intro y hy
    exact absurd hy (by simp)
  hout c := by
    rw [show (dats m 0 c).Φ (Fin.last cfg0.N) = PhiS m c cfg0.N from rfl, scopedRest0_eq, Pipeline.ownSems0_none]; unfold PhiS
    iintro ⟨%s, Hs, -⟩
    isplitr; · iempintro
    isplitr; · iempintro
    unfold owns
    icases Hs with ⟨%f, -, Hs⟩
    iexists f
    rw [hscM.set_eq_univ]; iexact Hs
  hexit c := by
    rw [show StableHlo.held (c : Thread nD τ) (Pipeline.ucRefs τ sig) (Vmid m c) = unscopedBufs c (fun b => Vmid m c (Proc.devRef .tc b)) from (Pipeline.unscopedBufs_held c _).symm,
      ub_chain, arrays_chain]
    simp only [arrAt_in0, arrAt_in1, arrAt_in2, arrAt_in3, arrAt_in4, arrAt_in5, arrAt_in6, arrAt_in7, arrAt_in8]
    rw [Vmid_result, Vmid_of_ne m c main_arg0 (by decide), Vmid_of_ne m c main_arg1 (by decide), Vmid_of_ne m c main_arg2 (by decide),
      Vmid_of_ne m c main_call0_v0 (by decide), Vmid_of_ne m c main_call0_v1 (by decide), Vmid_of_ne m c main_call0_v3 (by decide),
      Vmid_of_ne m c main_v0 (by decide)]
    iintro ⟨⟨Hv1, H1, H2, H3, H4, H5, H6, H7, H8, Hv2⟩, HO, -, ⟨Ha0, Hv0, Hv3, Hmv⟩⟩
    ihave Ha1 := (unquarter c main_arg1 _) $$ [H1 H2 H3 H4]
    · isplitl [H1]; · iexact H1
      isplitl [H2]; · iexact H2
      isplitl [H3] <;> iassumption
    ihave Ha2 := (unquarter c main_arg2 _) $$ [H5 H6 H7 H8]
    · isplitl [H5]; · iexact H5
      isplitl [H6]; · iexact H6
      isplitl [H7] <;> iassumption
    imodintro
    isplitr [HO]
    · isplitl [Ha0]; · iexact Ha0
      isplitl [Ha1]; · iexact Ha1
      isplitl [Ha2]; · iexact Ha2
      isplitl [Hv0]; · iexact Hv0
      isplitl [Hv1]; · iexact Hv1
      isplitl [Hv2]; · iexact Hv2
      isplitl [Hv3]; · iexact Hv3
      iexact Hmv
    · iapply (owes_out m c (Fin.last cfg0.N)); iexact HO

/-- @main as the list of the three. -/
abbrev segs : List (Pipeline.Seg (pcfgs (F := F)) adm (dats m) () defs₀ Variants.none Lv lv) :=
  [.host (seg0 m), .region (reg0 m), .host (seg1 m)]

set_option backward.isDefEq.respectTransparency.types false in
/-- THE RUN. At the compiled mesh, for any float values, from any memory with zero counters: every weakly fair execution
    of @main on the TensorCores terminates, nothing faulting, and every final state has each unscoped buffer at what the
    three segments leave in it. -/
theorem run_main : θ_run defs (onTc (τ := τ) (main (F := F))) ⟨m, fun _ => 0, ρ⟩
    (fun r => ∀ c : Dev nD, ∀ b ∈ Pipeline.ucRefs τ sig, r.2.mem (c, b) = Vfin m c b) :=
  Pipeline.θ_run_regions_kit (pcfgs (F := F)) adm (dats m) () cellOf_inj EP defs₀ Variants.none Lv lv m ρ main (segs m)
    (fun c Q => by rw [main_segs adm (dats m) () Variants.none Lv lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (c, b) = Vfin m c b)
    (hfin := fun c s' => by
      unfold StableHlo.held
      iintro ⟨Hh, HSI⟩
      ihave Hr := (pointsTo_read_all (Pipeline.ucRefs τ sig) (fun b => ((c : Thread nD τ).1, b)) (Vfin m c) s') $$ [Hh HSI]
      · isplitl [Hh] <;> iassumption
      icases Hr with ⟨%hr, HSI⟩
      imodintro
      isplitr; · ipureintro; exact hr
      iexact HSI)
    (hQ := fun _ h => h)

/-! ## The frame: the three arguments end as they began -/

/-- The two operations before the region write only their own results; -/
theorem not_written0 (b : Ref sig .tc) (hb : b ≠ main_call0_v0 ∧ b ≠ main_call0_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.TRef.reshape, StableHlo.TRef.unary, StableHlo.unary_writes, StableHlo.reshape_writes, Finset.mem_singleton] <;>
    exact StableHlo.devRef_ne_of_ne ‹_›

/-- the two after it likewise. -/
theorem not_written1 (b : Ref sig .tc) (hb : b ≠ main_call0_v3 ∧ b ≠ main_v0) :
    ∀ op ∈ (hostOps1 (F := F)), Proc.devRef .tc b ∉ op.writes := by
  obtain ⟨h0, h1⟩ := hb
  intro op hop
  simp only [List.mem_cons, List.mem_nil_iff, or_false] at hop
  rcases hop with rfl | rfl <;>
    simp only [StableHlo.TRef.reshape, StableHlo.TRef.unary, StableHlo.unary_writes, StableHlo.reshape_writes, Finset.mem_singleton] <;>
    exact StableHlo.devRef_ne_of_ne ‹_›

/-- A buffer none of the four operations writes, and that is not the region's result, ends as launched. -/
theorem Vfin_kept (c : Dev nD) (b : Ref sig .tc) (h0 : b ≠ main_call0_v0 ∧ b ≠ main_call0_v1) (h1 : b ≠ main_call0_v3 ∧ b ≠ main_v0)
    (h2 : b ≠ main_call0_v2) : Vfin m c (Proc.devRef .tc b) = m (c, Proc.devRef .tc b) :=
  (StableHlo.after_of_forall_not_mem (b := Proc.devRef .tc b) hostOps1 (Vmid m c) (not_written1 b h1)).trans
    ((Vmid_of_ne m c b h2).trans
      (StableHlo.after_of_forall_not_mem (b := Proc.devRef .tc b) hostOps0 (V₀ m c) (not_written0 b h0)))

theorem mem_uc (b : Ref sig .tc) (h : b.isScoped = false) : Proc.devRef .tc b ∈ Pipeline.ucRefs τ sig := by
  unfold Pipeline.ucRefs StableHlo.tcRefs
  simp only [Finset.mem_filter, Finset.mem_map, Finset.mem_univ, true_and]
  exact ⟨⟨b, rfl⟩, by simpa using h⟩

/-- THE FRAME, at any float instance: @main runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 rfl)).trans (Vfin_kept m c main_arg0 (by decide) (by decide) (by decide)),
     (h c _ (mem_uc main_arg1 rfl)).trans (Vfin_kept m c main_arg1 (by decide) (by decide) (by decide)),
     (h c _ (mem_uc main_arg2 rfl)).trans (Vfin_kept m c main_arg2 (by decide) (by decide) (by decide))⟩) (run_main m ρ)

end Cert.Kernel.Hand

end
-- ==== Proof.IdealBody.lean ====
/-
  The kernel body at one grid point, in its two phases, as two triples over explicit contents.

  The kernel computes relu(W1 · xᵀ) into a scratch h of 14336 rows during the first 28 grid points
  (four blocks of 128 rows of W1 per point), then W2 · h during the last 16 (four blocks of 64 rows of
  W2 per point, written into the 256-row output block). A point of the first phase overwrites four
  row-blocks of the scratch and touches nothing else; a point of the second reads the whole scratch and
  fills the output block with four pieces that tile it.
-/
import proofs.«168719_g47425028882858_cont_8to1c4_122_16_alg».proof.Proof.Gen.KernelIdeal.Launch
import proofs.«168719_g47425028882858_cont_8to1c4_122_16_alg».proof.Proof.Gen.KernelIdeal.Skeleton
import proofs.«168719_g47425028882858_cont_8to1c4_122_16_alg».proof.Proof.Gen.KernelIdeal.Points
import Idealize.ShloMosaic.Lib.Pipeline.Value
import Idealize.ShloMosaic.Lib.Ring
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however they are spelt. -/
theorem zero2 : (![0, 0] : Fin 2 → ℕ) = fun _ => 0 := by funext a; fin_cases a <;> rfl

/-- What a point of the first phase stores into the scratch, last store first: row-block j (128 rows, from row
    512·t + 128·j) receives relu(W1 block j · xᵀ). -/
def hiddenPieces (i : grid0.Coords) (h1 : k0_cond1 i = 1#1) (x1 : Vec F S4096x32 .f32) (x2 x3 x4 x5 : Vec F S128x4096 .f32) :
    List (View.Piece (Elt F) S14336x32 .f32) :=
  [⟨Rect.unit (s := S14336x32) (k0_off1 i 384#32) S128x32.size (k0_off1_inb i h1 3), k0_pay2 x5 x1⟩,
   ⟨Rect.unit (s := S14336x32) (k0_off1 i 256#32) S128x32.size (k0_off1_inb i h1 2), k0_pay1 (k0_pay9 x4 x1)⟩,
   ⟨Rect.unit (s := S14336x32) (k0_off1 i 128#32) S128x32.size (k0_off1_inb i h1 1), k0_pay8 x3 x1⟩,
   ⟨Rect.unit (s := S14336x32) (k0_off1 i 0#32) S128x32.size (k0_off1_inb i h1 0), k0_pay7 x2 x1⟩]

set_option maxHeartbeats 1600000 in
/-- FIRST PHASE. With xᵀ and the four W1 blocks in their buffers and the scratch at any contents, the body stores its
    four pieces into the scratch and leaves every input as it was. -/
theorem run_first (c : Dev nD) (i : grid0.Coords) (arg1 : Memref sig .tc .vmem S4096x32 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S64x14336 .f32) (harg6 : arg6.IsWhole) (arg7 : Memref sig .tc .vmem S64x14336 .f32) (harg7 : arg7.IsWhole) (arg8 : Memref sig .tc .vmem S64x14336 .f32) (harg8 : arg8.IsWhole) (arg9 : Memref sig .tc .vmem S64x14336 .f32) (harg9 : arg9.IsWhole) (arg10 : Memref sig .tc .vmem S256x32 .f32) (harg10 : arg10.IsWhole) (arg11 : Memref sig .tc .vmem S14336x32 .f32) (harg11 : arg11.IsWhole)
    (hc1 : k0_cond1 i = 1#1) (hc2 : ¬ k0_cond2 i = 1#1)
    (x1 : Vec F S4096x32 .f32) (x2 x3 x4 x5 : Vec F S128x4096 .f32) (xs : Vec F S14336x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg11 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg11 fullShare
                (arg11.view.read (Elt F) (arg11.view.writes (Elt F) (harg11.unread xs) (hiddenPieces i hc1 x1 x2 x3 x4 x5)))) -∗ K ⟨⟩))
      ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11) K := by
  simp only [cc0__ffn_kernel_eq_skeleton]; unfold cc0__ffn_kernel_skel
  unfold owns
  iintro ⟨⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf1; obtain rfl := harg2.eq_unread hf2; obtain rfl := harg3.eq_unread hf3
  obtain rfl := harg4.eq_unread hf4; obtain rfl := harg5.eq_unread hf5; obtain rfl := harg11.eq_unread hfs
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact HS
  ipureintro
  sl_unfold_run_names
  simp only [View.readAt_eq_ld, Memref.IsWhole.read_unread, View.ld_unit_zero (S := S128x4096) zero2, View.ld_unit_zero (S := S4096x32) zero2]
  rfl

/-- What a point of the second phase stores into the output block, last store first: rows 64·j … 64·j + 63 receive
    W2 block j · h. -/
def outPieces (x6 x7 x8 x9 : Vec F S64x14336 .f32) (xs : Vec F S14336x32 .f32) : List (View.Piece (Elt F) S256x32 .f32) :=
  [⟨Rect.unit (s := S256x32) ![192, 0] S64x32.size inb_S256x32_S64x32_192_0, k0_pay6 x9 xs⟩,
   ⟨Rect.unit (s := S256x32) ![128, 0] S64x32.size inb_S256x32_S64x32_128_0, k0_pay5 x8 xs⟩,
   ⟨Rect.unit (s := S256x32) ![64, 0] S64x32.size inb_S256x32_S64x32_64_0, k0_pay4 x7 xs⟩,
   ⟨Rect.unit (s := S256x32) ![0, 0] S64x32.size inb_S256x32_S64x32_0_0, k0_pay3 x6 xs⟩]

set_option maxHeartbeats 1600000 in
/-- SECOND PHASE. With the four W2 blocks in their buffers, the scratch at h and the output block's buffer at any
    contents, the body fills the output block with its four pieces and leaves the inputs and the scratch as they were. -/
theorem run_second (c : Dev nD) (i : grid0.Coords) (arg1 : Memref sig .tc .vmem S4096x32 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S64x14336 .f32) (harg6 : arg6.IsWhole) (arg7 : Memref sig .tc .vmem S64x14336 .f32) (harg7 : arg7.IsWhole) (arg8 : Memref sig .tc .vmem S64x14336 .f32) (harg8 : arg8.IsWhole) (arg9 : Memref sig .tc .vmem S64x14336 .f32) (harg9 : arg9.IsWhole) (arg10 : Memref sig .tc .vmem S256x32 .f32) (harg10 : arg10.IsWhole) (arg11 : Memref sig .tc .vmem S14336x32 .f32) (harg11 : arg11.IsWhole)
    (hc1 : ¬ k0_cond1 i = 1#1) (hc2 : k0_cond2 i = 1#1)
    (x6 x7 x8 x9 : Vec F S64x14336 .f32) (xs : Vec F S14336x32 .f32)
    (E : Set ℕ) (K : PUnit → sProp 𝕄) :
    iprop(owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg11 fullShare xs ∗ (∃ d, owns (c : Thread nD τ) arg10 fullShare d)
        ∗ (iprop(owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg11 fullShare xs
            ∗ owns (c : Thread nD τ) arg10 fullShare (View.canon (outPieces x6 x7 x8 x9 xs))) -∗ K ⟨⟩))
      ⊢ wp frame (wpE (defs₀ (F := F)) Variants.none c none) E (cc0__ffn_kernel i arg1 harg1 arg2 harg2 arg3 harg3 arg4 harg4 arg5 harg5 arg6 harg6 arg7 harg7 arg8 harg8 arg9 harg9 arg10 harg10 arg11 harg11) K := by
  simp only [cc0__ffn_kernel_eq_skeleton]; unfold cc0__ffn_kernel_skel
  unfold owns
  iintro ⟨⟨%f6, %hf6, H6⟩, ⟨%f7, %hf7, H7⟩, ⟨%f8, %hf8, H8⟩, ⟨%f9, %hf9, H9⟩, ⟨%fs, %hfs, HS⟩, ⟨%d10, %f10, -, H10⟩, Hk⟩
  obtain rfl := harg6.eq_unread hf6; obtain rfl := harg7.eq_unread hf7; obtain rfl := harg8.eq_unread hf8
  obtain rfl := harg9.eq_unread hf9; obtain rfl := harg11.eq_unread hfs
  sl_exec (disch := first | exact hc1 | exact hc2)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [HS]
  · iexists _; isplitr; · ipureintro; exact harg11.read_unread _
    iexact HS
  iexists _; isplitr
  swap; · iexact H10
  ipureintro
  simp only [View.readAt_eq_ld, Memref.IsWhole.read_unread, View.ld_unit_zero (S := S64x14336) zero2, View.ld_unit_zero (S := S14336x32) zero2]
  exact View.read_writes_eq_canon arg10.view f10 (outPieces x6 x7 x8 x9 xs)
    (View.cover_of_tiledL (outPieces x6 x7 x8 x9 xs) S64x32.size (by sl_kernel_rfl))

end Cert.KernelIdeal.Hand

end
-- ==== Proof.IdealData.lean ====
/-
  The pipeline's proof data: what each window's buffer and the scratch hold, point by point.
-/
import proofs.«168719_g47425028882858_cont_8to1c4_122_16_alg».proof.Proof.Gen.KernelIdeal.Launch
import proofs.«168719_g47425028882858_cont_8to1c4_122_16_alg».proof.Proof.Gen.KernelIdeal.Skeleton
import proofs.«168719_g47425028882858_cont_8to1c4_122_16_alg».proof.Proof.Gen.KernelIdeal.Points
import proofs.«168719_g47425028882858_cont_8to1c4_122_16_alg».proof.Proof.IdealBody
import Idealize.ShloMosaic.Lib.Pipeline.Value
import Idealize.ShloMosaic.Lib.Ring
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s unscoped buffers when the region is entered: the launch contents after the two host operations before it
    (x reshaped to 32 rows, then transposed). -/
abbrev Vent (c : Dev nD) : Valuation τ sig (Elt F) := StableHlo.after hostOps0 (fun b => m (c, b))
/-- The same read at a TensorCore reference. -/
abbrev V (c : Dev nD) (b : Ref sig .tc) : Buf (Elt F) ((c : Thread nD τ).loc b) := Vent m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two phases over the grid -/

/-- The first phase is the points below 28, -/
theorem hcond1 : ∀ t : Fin cfg0.N, k0_cond1 (grid0.coords t) = 1#1 ↔ t.val < 28 :=
  (by decide +kernel : ∀ t : Fin grid0.N, k0_cond1 (grid0.coords t) = 1#1 ↔ t.val < 28)
/-- the second the points from 28 on. -/
theorem hcond2 : ∀ t : Fin cfg0.N, k0_cond2 (grid0.coords t) = 1#1 ↔ 28 ≤ t.val :=
  (by decide +kernel : ∀ t : Fin grid0.N, k0_cond2 (grid0.coords t) = 1#1 ↔ 28 ≤ t.val)

/-- At point `t` of the first phase the r-th store's row-block starts at row 512·t + 128·r. -/
theorem off_rows : ∀ t : Fin cfg0.N, t.val < 28 → ∀ r : Fin 4,
    k0_off1 (grid0.coords t) (BitVec.ofNat 32 (128 * r.val)) = ![512 * t.val + 128 * r.val, 0] :=
  (by decide +kernel : ∀ t : Fin grid0.N, t.val < 28 → ∀ r : Fin 4,
    k0_off1 (grid0.coords t) (BitVec.ofNat 32 (128 * r.val)) = ![512 * t.val + 128 * r.val, 0])

/-! ## The hidden activations, in closed form -/

theorem row_lt (y : S14336x32.Idx) : (y 0).val < 14336 := (y 0).isLt
theorem col_lt (y : S14336x32.Idx) : (y 1).val < 32 := (y 1).isLt

/-- The point of the first phase that writes row `y 0` of the scratch: rows 512·t … 512·t + 511 are point t's. -/
def rowPoint (y : S14336x32.Idx) : Fin cfg0.N :=
  ⟨(y 0).val / 512, by have := row_lt y; have hN : cfg0.N = 44 := N_0; omega⟩
theorem rowPoint_lt (y : S14336x32.Idx) : (rowPoint y).val < 28 := by
  have := row_lt y; show (y 0).val / 512 < 28; omega

/-- What the first phase leaves in the scratch: at row `y 0` what the point that owns the row stored there. A function of
    the arrays alone (xᵀ and the rows of W1), whatever the scratch held before. -/
def Hfun (c : Dev nD) : Vec F S14336x32 .f32 := fun y =>
  View.canon (hiddenPieces (grid0.coords (rowPoint y)) ((hcond1 (rowPoint y)).mpr (rowPoint_lt y))
    (iblk m c 0 (rowPoint y)) (iblk m c 1 (rowPoint y)) (iblk m c 2 (rowPoint y)) (iblk m c 3 (rowPoint y)) (iblk m c 4 (rowPoint y))) y

/-- `Hfun` at a row of point `p`'s. -/
theorem Hfun_eq (c : Dev nD) (p : Fin cfg0.N) (hp : p.val < 28) (y : S14336x32.Idx) (hy : (y 0).val / 512 = p.val) :
    Hfun m c y = View.canon (hiddenPieces (grid0.coords p) ((hcond1 p).mpr hp)
      (iblk m c 0 p) (iblk m c 1 p) (iblk m c 2 p) (iblk m c 3 p) (iblk m c 4 p)) y := by
  obtain rfl : rowPoint y = p := Fin.ext hy
  rfl

/-- The scratch operand, a whole scoped buffer of the kernel's own. -/
abbrev scM : Memref sig .tc .vmem S14336x32 .f32 := Memref.whole cc0_scratch0
abbrev hscM : (scM).IsWhole := Memref.isWhole_whole _

/-- Which of a first-phase point's four row-blocks holds a row of that point's. -/
theorem mem_hidden_piece (t : Fin cfg0.N) (ht : t.val < 28) (y : S14336x32.Idx) (r : Fin 4)
    (hlo : 512 * t.val + 128 * r.val ≤ (y 0).val) (hhi : (y 0).val < 512 * t.val + 128 * r.val + 128) :
    y ∈ (Rect.unit (s := S14336x32) (k0_off1 (grid0.coords t) (BitVec.ofNat 32 (128 * r.val))) S128x32.size
      (k0_off1_inb (grid0.coords t) ((hcond1 t).mpr ht) r)).set := by
  rw [Rect.mem_set_unit]
  intro a
  rw [off_rows t ht r]
  have hc := col_lt y
  match a with
  | ⟨0, _⟩ => exact ⟨hlo, hhi⟩
  | ⟨1, _⟩ => exact ⟨Nat.zero_le _, by show (y 1).val < 0 + 32; omega⟩

/-- A row below the point's first row is in none of them. -/
theorem not_mem_hidden_piece (t : Fin cfg0.N) (ht : t.val < 28) (y : S14336x32.Idx) (r : Fin 4)
    (hlow : (y 0).val < 512 * t.val) :
    y ∉ (Rect.unit (s := S14336x32) (k0_off1 (grid0.coords t) (BitVec.ofNat 32 (128 * r.val))) S128x32.size
      (k0_off1_inb (grid0.coords t) ((hcond1 t).mpr ht) r)).set := by
  rw [Rect.mem_set_unit]
  intro h
  have h0 := (h 0).1
  rw [off_rows t ht r] at h0
  have : 512 * t.val + 128 * r.val ≤ (y 0).val := h0
  omega

/-! ## One step of the first phase -/

/-- THE STEP. If the scratch holds the hidden activations on the rows below point `t`'s, then after point `t`'s four stores
    it holds them on the rows below point `t + 1`'s: a row of an earlier point's is under none of the four pieces and keeps
    its contents; a row of this point's is under one of them and reads that piece's payload, which is what `Hfun` is there. -/
theorem hidden_step (c : Dev nD) (t : Fin cfg0.N) (ht : t.val < 28) (s : Vec F S14336x32 .f32)
    (hs : ∀ y : S14336x32.Idx, (y 0).val < 512 * t.val → s y = Hfun m c y)
    (y : S14336x32.Idx) (hy : (y 0).val < 512 * (t.val + 1)) :
    scM.view.read (Elt F) (scM.view.writes (Elt F) (hscM.unread s)
      (hiddenPieces (grid0.coords t) ((hcond1 t).mpr ht) (iblk m c 0 t) (iblk m c 1 t) (iblk m c 2 t) (iblk m c 3 t) (iblk m c 4 t))) y
      = Hfun m c y := by
  by_cases hlow : (y 0).val < 512 * t.val
  · rw [View.read_writes_apply_of_forall_not_mem scM.view _ y _ (fun p hp => ?_), hscM.read_unread]
    · exact hs y hlow
    · unfold hiddenPieces at hp
      simp only [List.mem_cons, List.mem_nil_iff, or_false] at hp
      rcases hp with rfl | rfl | rfl | rfl
      · exact not_mem_hidden_piece t ht y 3 hlow
      · exact not_mem_hidden_piece t ht y 2 hlow
      · exact not_mem_hidden_piece t ht y 1 hlow
      · exact not_mem_hidden_piece t ht y 0 hlow
  · rw [Hfun_eq m c t ht y (by omega)]
    refine View.read_writes_apply_eq_canon scM.view _ y _ ?_
    unfold hiddenPieces
    have h4 : (y 0).val < 512 * t.val + 128 ∨ (512 * t.val + 128 ≤ (y 0).val ∧ (y 0).val < 512 * t.val + 256)
        ∨ (512 * t.val + 256 ≤ (y 0).val ∧ (y 0).val < 512 * t.val + 384) ∨ 512 * t.val + 384 ≤ (y 0).val := by omega
    rcases h4 with h | ⟨h, h'⟩ | ⟨h, h'⟩ | h
    · exact ⟨_, List.mem_cons_of_mem _ (List.mem_cons_of_mem _ (List.mem_cons_of_mem _ List.mem_cons_self)),
        mem_hidden_piece t ht y 0 (by omega) (by omega)⟩
    · exact ⟨_, List.mem_cons_of_mem _ (List.mem_cons_of_mem _ List.mem_cons_self), mem_hidden_piece t ht y 1 (by omega) (by omega)⟩
    · exact ⟨_, List.mem_cons_of_mem _ List.mem_cons_self, mem_hidden_piece t ht y 2 (by omega) (by omega)⟩
    · exact ⟨_, List.mem_cons_self, mem_hidden_piece t ht y 3 (by omega) (by omega)⟩

/-! ## The invariant and the proof data -/

/-- The region invariant before position `n`: the scratch at contents that are the hidden activations on the rows the
    points before `n` have written (all of them once the first phase is over). -/
def PhiS (c : Dev nD) (n : ℕ) : sProp 𝕄 :=
  iprop(∃ s : Vec F S14336x32 .f32, owns (c : Thread nD τ) scM fullShare s
    ∗ ⌜∀ y : S14336x32.Idx, (y 0).val < 512 * min n 28 → s y = Hfun m c y⌝)

/-- The proof data of the one pipeline on core `c`: the arrays as the region finds them; after the body each input's
    buffer at its block, the output's at four row-blocks of W2 times the hidden activations; the invariant above;
    nothing owed; W1 and W2 each read by four windows, a quarter of the full share to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (outPieces (iblk m c 5 t) (iblk m c 6 t) (iblk m c 7 t) (iblk m c 8 t) (Hfun m c))
    | ⟨_ + 10, h⟩ => absurd h (Nat.not_lt.2 (Nat.le_add_left _ _))
  Φ t := PhiS m c t.val
  q w := match w with
    | ⟨0, _⟩ => fullShare
    | ⟨1, _⟩ => fullShare.left.left
    | ⟨2, _⟩ => fullShare.left.right
    | ⟨3, _⟩ => fullShare.right.left
    | ⟨4, _⟩ => fullShare.right.right
    | ⟨5, _⟩ => fullShare.left.left
    | ⟨6, _⟩ => fullShare.left.right
    | ⟨7, _⟩ => fullShare.right.left
    | ⟨8, _⟩ => fullShare.right.right
    | ⟨9, _⟩ => fullShare
    | ⟨_ + 10, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) :
    (dats m 0 c).after 9 t = View.canon (outPieces (iblk m c 5 t) (iblk m c 6 t) (iblk m c 7 t) (iblk m c 8 t) (Hfun m c)) := by
  dsimp only [dats]

/-! ## An input's buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

/-! ## The output window over the grid -/

/-- In the first phase the body stores nothing into the output block: the window is idle there, -/
theorem idle9 : ∀ t : Fin cfg0.N, t.val < 28 → cfg0.idle 9 (grid0.coords t) = true :=
  (by decide +kernel : ∀ t : Fin grid0.N, t.val < 28 → cfg0.idle 9 (grid0.coords t) = true)
/-- and is not written back; -/
theorem noflush9 : ∀ t : Fin cfg0.N, t.val < 28 → (cfg0.win 9).flush t = false :=
  (by decide +kernel : ∀ t : Fin grid0.N, t.val < 28 → (cfg0.win 9).flush t = false)
/-- in the second it is live. -/
theorem live9 : ∀ t : Fin cfg0.N, 28 ≤ t.val → cfg0.idle 9 (grid0.coords t) = false :=
  (by decide +kernel : ∀ t : Fin grid0.N, 28 ≤ t.val → cfg0.idle 9 (grid0.coords t) = false)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) :
    (dats m 0 c).leavesExact 0 t = owns (c : Thread nD τ) (st0_0 t) fullShare (iblk m c 0 t) := by
  rw [← after0]
theorem leaves1 (c : Dev nD) (t : Fin cfg0.N) :
    (dats m 0 c).leavesExact 1 t = owns (c : Thread nD τ) (st0_1 t) fullShare (iblk m c 1 t) := by
  rw [← after1]
theorem leaves2 (c : Dev nD) (t : Fin cfg0.N) :
    (dats m 0 c).leavesExact 2 t = owns (c : Thread nD τ) (st0_2 t) fullShare (iblk m c 2 t) := by
  rw [← after2]
theorem leaves3 (c : Dev nD) (t : Fin cfg0.N) :
    (dats m 0 c).leavesExact 3 t = owns (c : Thread nD τ) (st0_3 t) fullShare (iblk m c 3 t) := by
  rw [← after3]
theorem leaves4 (c : Dev nD) (t : Fin cfg0.N) :
    (dats m 0 c).leavesExact 4 t = owns (c : Thread nD τ) (st0_4 t) fullShare (iblk m c 4 t) := by
  rw [← after4]
theorem leaves5 (c : Dev nD) (t : Fin cfg0.N) :
    (dats m 0 c).leavesExact 5 t = owns (c : Thread nD τ) (st0_5 t) fullShare (iblk m c 5 t) := by
  rw [← after5]
theorem leaves6 (c : Dev nD) (t : Fin cfg0.N) :
    (dats m 0 c).leavesExact 6 t = owns (c : Thread nD τ) (st0_6 t) fullShare (iblk m c 6 t) := by
  rw [← after6]
theorem leaves7 (c : Dev nD) (t : Fin cfg0.N) :
    (dats m 0 c).leavesExact 7 t = owns (c : Thread nD τ) (st0_7 t) fullShare (iblk m c 7 t) := by
  rw [← after7]
theorem leaves8 (c : Dev nD) (t : Fin cfg0.N) :
    (dats m 0 c).leavesExact 8 t = owns (c : Thread nD τ) (st0_8 t) fullShare (iblk m c 8 t) := by
  rw [← after8]

set_option maxHeartbeats 4000000 in
/-- The body at any point. Every input's buffer holds its block. In the first phase the run stores the point's four
    row-blocks into the scratch, which extends the rows the invariant speaks of by this point's (`hidden_step`), and hands the
    output block's buffer back untouched; in the second the scratch holds all the hidden activations, the run fills the
    output block with its four pieces and changes nothing else. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8,
    leaves0, leaves1, leaves2, leaves3, leaves4, leaves5, leaves6, leaves7, leaves8]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 44 := lt_of_lt_of_eq t.isLt (show cfg0.N = 44 from N_0)
  by_cases ht : t.val < 28
  · rw [Dat.leavesExact_idle (dats m 0 c) 9 t (idle9 t ht) (noflush9 t ht)]
    iintro ⟨⟨%s, HS, %hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) scM hscM
      ((hcond1 t).mpr ht) (fun h => absurd ((hcond2 t).mp h) (by omega))
      (iblk m c 0 t) (iblk m c 1 t) (iblk m c 2 t) (iblk m c 3 t) (iblk m c 4 t) s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro
      intro y hy
      exact hidden_step m c t ht s (fun y hy' => hs y (by rw [Nat.min_eq_left (by omega)]; exact hy')) y
        (by rw [Nat.min_eq_left (by omega)] at hy; exact hy)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · rw [show (dats m 0 c).leavesExact 9 t = owns (c : Thread nD τ) (st0_9 t) fullShare ((dats m 0 c).after 9 t) from by
      unfold Dat.leavesExact; rw [live9 t (by omega)], after9]
    iintro ⟨⟨%s, HS, %hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl : s = Hfun m c := funext fun y => hs y (by rw [Nat.min_eq_right (by omega)]; have := row_lt y; omega)
    iapply (run_second c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) scM hscM
      (fun h => absurd ((hcond1 t).mp h) ht) ((hcond2 t).mpr (by omega))
      (iblk m c 5 t) (iblk m c 6 t) (iblk m c 7 t) (iblk m c 8 t) (Hfun m c) Set.univ _)
    isplitl [H5]; · iexact H5
    isplitl [H6]; · iexact H6
    isplitl [H7]; · iexact H7
    isplitl [H8]; · iexact H8
    isplitl [HS]; · iexact HS
    isplitl [H9]; · iexists _; iexact H9
    iintro ⟨H5, H6, H7, H8, HS, H9⟩
    isplitl [HS]
    · iexists _; isplitl [HS]; · iexact HS
      ipureintro
      intro y _
      rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealLaunch.lean ====
/-
  The launch: @main as a host segment, the kernel region, a host segment, and the run of the three.
-/
import proofs.«168719_g47425028882858_cont_8to1c4_122_16_alg».proof.Proof.Gen.KernelIdeal.Launch
import proofs.«168719_g47425028882858_cont_8to1c4_122_16_alg».proof.Proof.Gen.KernelIdeal.Skeleton
import proofs.«168719_g47425028882858_cont_8to1c4_122_16_alg».proof.Proof.Gen.KernelIdeal.Points
import proofs.«168719_g47425028882858_cont_8to1c4_122_16_alg».proof.Proof.IdealData
import Idealize.ShloMosaic.Lib.Pipeline.Value
import Idealize.ShloMosaic.Lib.Ring
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's vocabulary -/

/-- The pipeline library's algebra is the whole user component: the kernel has no semaphore of its own. -/
abbrev EP : Emb (UR sig nD τ) (MT nD τ sig Unit (Elt F) ℕ (UR sig nD τ) ℕ) := emb₁
/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: that the core owes nothing. -/
abbrev R (c : Dev nD) : sProp 𝕄 := iprop(∃ W, owes (c : Thread nD τ) (0 : CellTallies nD τ sig Unit) W)
/-- Core `c`'s buffers at launch. -/
abbrev V₀ (c : Dev nD) : Valuation τ sig (Elt F) := fun b => m (c, b)

/-- One unscoped buffer of core `c`, whole at share `q`. -/
abbrev pt (c : Dev nD) (b : Ref sig .tc) (q : PosShare TreeShare) (f : Buf (Elt F) ((c : Thread nD τ).loc b)) : sProp 𝕄 :=
  ((c : Thread nD τ).loc b) ↦{q} f

/-- The core's unscoped buffers, one by one: @main's three arguments and the five values of the function it calls. -/
theorem ub_chain (c : Dev nD) (W : (b : Ref sig .tc) → Buf (Elt F) ((c : Thread nD τ).loc b)) :
    (unscopedBufs c W : sProp 𝕄)
      = iprop(pt c main_arg0 fullShare (W main_arg0) ∗ pt c main_arg1 fullShare (W main_arg1) ∗ pt c main_arg2 fullShare (W main_arg2) ∗ pt c main_call0_v0 fullShare (W main_call0_v0) ∗ pt c main_call0_v1 fullShare (W main_call0_v1) ∗ pt c main_call0_v2 fullShare (W main_call0_v2) ∗ pt c main_call0_v3 fullShare (W main_call0_v3) ∗ pt c main_v0 fullShare (W main_v0)) := by
  unfold unscopedBufs
  exact bigSep_eq_bigSepL_of_eq [main_arg0, main_arg1, main_arg2, main_call0_v0, main_call0_v1, main_call0_v2, main_call0_v3, main_v0] (by decide) (by decide) _

/-! ## The host operations around the region -/

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- BEFORE the region: x reshaped to 32 rows and transposed, over the unscoped buffers. -/
def seg0 : Pipeline.HostSeg (Name := ℕ) (U := UR sig nD τ) (pcfgs (F := F)) defs₀ Variants.none Lv lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The buffers when the region is left: the result's buffer at what the write-backs left there, every other as the
    region found it. -/
def Vmid (c : Dev nD) : Valuation τ sig (Elt F) :=
  Function.update (Vent m c) (Proc.devRef .tc main_call0_v2) ((dats m 0 c).arrAt 9 cfg0.N)

theorem Vmid_result (c : Dev nD) : Vmid m c (Proc.devRef .tc main_call0_v2) = (dats m 0 c).arrAt 9 cfg0.N := by
  unfold Vmid; exact Function.update_self _ _ _

theorem Vmid_of_ne (c : Dev nD) (b : Ref sig .tc) (h : b ≠ main_call0_v2) : Vmid m c (Proc.devRef .tc b) = V m c b := by
  unfold Vmid; exact Function.update_of_ne (StableHlo.devRef_ne_of_ne h) _ _

/-- AFTER the region: the result transposed back and reshaped to x's shape. -/
def seg1 : Pipeline.HostSeg (Name := ℕ) (U := UR sig nD τ) (pcfgs (F := F)) defs₀ Variants.none Lv lv :=
  Pipeline.HostSeg.ofOps _ _ _ _ _ (Pipeline.ucRefs τ sig) hostOps1
    (fun op h => Pipeline.sub_ucRefs op ((List.forall_iff_forall_mem.mp hostOps1_sub) op h)) hostOps1_fresh (Vmid m) R

/-- The buffers at the end. -/
abbrev Vfin (c : Dev nD) : Valuation τ sig (Elt F) := StableHlo.after hostOps1 (Vmid m c)

/-! ## The windows' arrays, one by one, at their shares -/

/-- The ten windows' arrays: xᵀ whole; W1 at four quarters, one per window on it; W2 likewise; the result whole. -/
theorem arrays_chain (c : Dev nD) (G : (w : Fin cfg0.W) → Buf (Elt F) ((cfg0.win w).arr.view.loc (c : Thread nD τ))) :
    ((dats m 0 c).arrays G : sProp 𝕄)
      = iprop(pt c main_call0_v1 fullShare (G 0) ∗ pt c main_arg1 fullShare.left.left (G 1) ∗ pt c main_arg1 fullShare.left.right (G 2) ∗ pt c main_arg1 fullShare.right.left (G 3) ∗ pt c main_arg1 fullShare.right.right (G 4) ∗ pt c main_arg2 fullShare.left.left (G 5) ∗ pt c main_arg2 fullShare.left.right (G 6) ∗ pt c main_arg2 fullShare.right.left (G 7) ∗ pt c main_arg2 fullShare.right.right (G 8) ∗ pt c main_call0_v2 fullShare (G 9)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ]
  rfl

theorem arrAt_in0 (c : Dev nD) (n : ℕ) : (dats m 0 c).arrAt 0 n = V m c main_call0_v1 :=
  ((dats m 0 c).arrAt_in 0 rfl n).trans (A_eq m c 0)
theorem arrAt_in1 (c : Dev nD) (n : ℕ) : (dats m 0 c).arrAt 1 n = V m c main_arg1 :=
  ((dats m 0 c).arrAt_in 1 rfl n).trans (A_eq m c 1)
theorem arrAt_in2 (c : Dev nD) (n : ℕ) : (dats m 0 c).arrAt 2 n = V m c main_arg1 :=
  ((dats m 0 c).arrAt_in 2 rfl n).trans (A_eq m c 2)
theorem arrAt_in3 (c : Dev nD) (n : ℕ) : (dats m 0 c).arrAt 3 n = V m c main_arg1 :=
  ((dats m 0 c).arrAt_in 3 rfl n).trans (A_eq m c 3)
theorem arrAt_in4 (c : Dev nD) (n : ℕ) : (dats m 0 c).arrAt 4 n = V m c main_arg1 :=
  ((dats m 0 c).arrAt_in 4 rfl n).trans (A_eq m c 4)
theorem arrAt_in5 (c : Dev nD) (n : ℕ) : (dats m 0 c).arrAt 5 n = V m c main_arg2 :=
  ((dats m 0 c).arrAt_in 5 rfl n).trans (A_eq m c 5)
theorem arrAt_in6 (c : Dev nD) (n : ℕ) : (dats m 0 c).arrAt 6 n = V m c main_arg2 :=
  ((dats m 0 c).arrAt_in 6 rfl n).trans (A_eq m c 6)
theorem arrAt_in7 (c : Dev nD) (n : ℕ) : (dats m 0 c).arrAt 7 n = V m c main_arg2 :=
  ((dats m 0 c).arrAt_in 7 rfl n).trans (A_eq m c 7)
theorem arrAt_in8 (c : Dev nD) (n : ℕ) : (dats m 0 c).arrAt 8 n = V m c main_arg2 :=
  ((dats m 0 c).arrAt_in 8 rfl n).trans (A_eq m c 8)
theorem arrAt_out0 (c : Dev nD) : (dats m 0 c).arrAt 9 0 = V m c main_call0_v2 := A_eq m c 9

theorem owes_in (c : Dev nD) (t : Fin (cfg0.N + 1)) : R c ⊢ ((dats m 0 c).owesAt () t : sProp 𝕄) := by
  unfold Pipeline.Dat.owesAt Pipeline.owesWithin
  iintro ⟨%W, HO⟩; iexists W; isplitr; · ipureintro; exact fun _ _ => Or.inl trivial
  iexact HO

theorem owes_out (c : Dev nD) (t : Fin (cfg0.N + 1)) : ((dats m 0 c).owesAt () t : sProp 𝕄) ⊢ R c := by
  unfold Pipeline.Dat.owesAt Pipeline.owesWithin
  iintro ⟨%W, -, HO⟩; iexists W; iexact HO

/-- A buffer held whole, split into four quarters, -/
theorem quarter (c : Dev nD) (b : Ref sig .tc) (f : Buf (Elt F) ((c : Thread nD τ).loc b)) :
    pt c b fullShare f ⊢ (iprop(pt c b fullShare.left.left f ∗ pt c b fullShare.left.right f ∗ pt c b fullShare.right.left f ∗ pt c b fullShare.right.right f) : sProp 𝕄) := by
  iintro H
  ihave H := (pointsTo_share (PosShare.mem_left_op_right fullShare)).1 $$ H
  icases H with ⟨Hl, Hr⟩
  ihave Hl := (pointsTo_share (PosShare.mem_left_op_right fullShare.left)).1 $$ Hl
  ihave Hr := (pointsTo_share (PosShare.mem_left_op_right fullShare.right)).1 $$ Hr
  icases Hl with ⟨Hll, Hlr⟩
  icases Hr with ⟨Hrl, Hrr⟩
  isplitl [Hll]; · iexact Hll
  isplitl [Hlr]; · iexact Hlr
  isplitl [Hrl]; · iexact Hrl
  iexact Hrr

/-- and put back together. -/
theorem unquarter (c : Dev nD) (b : Ref sig .tc) (f : Buf (Elt F) ((c : Thread nD τ).loc b)) :
    (iprop(pt c b fullShare.left.left f ∗ pt c b fullShare.left.right f ∗ pt c b fullShare.right.left f ∗ pt c b fullShare.right.right f) : sProp 𝕄) ⊢ pt c b fullShare f := by
  iintro ⟨Hll, Hlr, Hrl, Hrr⟩
  ihave Hl := (pointsTo_share (PosShare.mem_left_op_right fullShare.left)).2 $$ [Hll Hlr]
  · isplitl [Hll] <;> iassumption
  ihave Hr := (pointsTo_share (PosShare.mem_left_op_right fullShare.right)).2 $$ [Hrl Hrr]
  · isplitl [Hrl] <;> iassumption
  iapply (pointsTo_share (PosShare.mem_left_op_right fullShare)).2
  isplitl [Hl] <;> iassumption

/-! ## The region -/

/-- What the region leaves beside the arrays: the four unscoped buffers no window stages, as the region found them. -/
abbrev Zc (c : Dev nD) : sProp 𝕄 :=
  iprop(pt c main_arg0 fullShare (V m c main_arg0) ∗ pt c main_call0_v0 fullShare (V m c main_call0_v0)
    ∗ pt c main_call0_v3 fullShare (V m c main_call0_v3) ∗ pt c main_v0 fullShare (V m c main_v0))

set_option backward.isDefEq.respectTransparency.types false in
/-- THE REGION. Entered from what the first host segment left: xᵀ's buffer and the result's go to their windows whole,
    W1's and W2's each to their four windows a quarter apiece, the scratch to the invariant at whatever it holds, the other
    four buffers past the region. Left with every input as it was (the quarters put back together) and the result's
    buffer at what the write-backs left. -/
def reg0 : Pipeline.RegionSeg (pcfgs (F := F)) adm (dats m) () defs₀ Variants.none Lv lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lv lv 0 fun _ _ => rfl
  pre c := iprop(StableHlo.held (c : Thread nD τ) (Pipeline.ucRefs τ sig) (Vent m c) ∗ R c)
  post c := iprop(StableHlo.held (c : Thread nD τ) (Pipeline.ucRefs τ sig) (Vmid m c) ∗ R c)
  X _ := iprop(emp)
  Y _ := iprop(emp)
  Z c := Zc m c
  hentry c := by
    rw [show StableHlo.held (c : Thread nD τ) (Pipeline.ucRefs τ sig) (Vent m c) = unscopedBufs c (V m c) from (Pipeline.unscopedBufs_held c _).symm,
      ub_chain, arrays_chain]
    simp only [arrAt_in0, arrAt_in1, arrAt_in2, arrAt_in3, arrAt_in4, arrAt_in5, arrAt_in6, arrAt_in7, arrAt_in8, arrAt_out0]
    iintro ⟨⟨⟨Ha0, Ha1, Ha2, Hv0, Hv1, Hv2, Hv3, Hmv⟩, HO⟩, -, -⟩
    ihave Ha1 := (quarter c main_arg1 _) $$ Ha1
    ihave Ha2 := (quarter c main_arg2 _) $$ Ha2
    icases Ha1 with ⟨H1, H2, H3, H4⟩
    icases Ha2 with ⟨H5, H6, H7, H8⟩
    imodintro
    isplitl [Hv1 H1 H2 H3 H4 H5 H6 H7 H8 Hv2]
    · isplitl [Hv1]; · iexact Hv1
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact Hv2
    isplitr; · unfold Pipeline.prefHeld; rw [show (Finset.univ : Finset (Fin 0)) = ∅ from rfl, BI.bigSep_empty]; iempintro
    isplitl [HO]; · iapply (owes_in m c 0); iexact HO
    isplitr; · iempintro
    isplitl [Ha0]; · iexact Ha0
    isplitl [Hv0]; · iexact Hv0
    isplitl [Hv3]; · iexact Hv3
    iexact Hmv
  hin c := by
    rw [show (dats m 0 c).Φ 0 = PhiS m c 0 from rfl, scopedRest0_eq]; unfold PhiS
    iintro ⟨-, -, ⟨%f, Hs⟩⟩
    iexists (scM.view.read (Elt F) f)
    isplitl [Hs]
    · unfold owns; iexists f; isplitr; · ipureintro; rfl
      rw [hscM.set_eq_univ]; iexact Hs
    ipureintro
    intro y hy
    exact absurd hy (by simp)
  hout c := by
    rw [show (dats m 0 c).Φ (Fin.last cfg0.N) = PhiS m c cfg0.N from rfl, scopedRest0_eq, Pipeline.ownSems0_none]; unfold PhiS
    iintro ⟨%s, Hs, -⟩
    isplitr; · iempintro
    isplitr; · iempintro
    unfold owns
    icases Hs with ⟨%f, -, Hs⟩
    iexists f
    rw [hscM.set_eq_univ]; iexact Hs
  hexit c := by
    rw [show StableHlo.held (c : Thread nD τ) (Pipeline.ucRefs τ sig) (Vmid m c) = unscopedBufs c (fun b => Vmid m c (Proc.devRef .tc b)) from (Pipeline.unscopedBufs_held c _).symm,
      ub_chain, arrays_chain]
    simp only [arrAt_in0, arrAt_in1, arrAt_in2, arrAt_in3, arrAt_in4, arrAt_in5, arrAt_in6, arrAt_in7, arrAt_in8]
    rw [Vmid_result, Vmid_of_ne m c main_arg0 (by decide), Vmid_of_ne m c main_arg1 (by decide), Vmid_of_ne m c main_arg2 (by decide),
      Vmid_of_ne m c main_call0_v0 (by decide), Vmid_of_ne m c main_call0_v1 (by decide), Vmid_of_ne m c main_call0_v3 (by decide),
      Vmid_of_ne m c main_v0 (by decide)]
    iintro ⟨⟨Hv1, H1, H2, H3, H4, H5, H6, H7, H8, Hv2⟩, HO, -, ⟨Ha0, Hv0, Hv3, Hmv⟩⟩
    ihave Ha1 := (unquarter c main_arg1 _) $$ [H1 H2 H3 H4]
    · isplitl [H1]; · iexact H1
      isplitl [H2]; · iexact H2
      isplitl [H3] <;> iassumption
    ihave Ha2 := (unquarter c main_arg2 _) $$ [H5 H6 H7 H8]
    · isplitl [H5]; · iexact H5
      isplitl [H6]; · iexact H6
      isplitl [H7] <;> iassumption
    imodintro
    isplitr [HO]
    · isplitl [Ha0]; · iexact Ha0
      isplitl [Ha1]; · iexact Ha1
      isplitl [Ha2]; · iexact Ha2
      isplitl [Hv0]; · iexact Hv0
      isplitl [Hv1]; · iexact Hv1
      isplitl [Hv2]; · iexact Hv2
      isplitl [Hv3]; · iexact Hv3
      iexact Hmv
    · iapply (owes_out m c (Fin.last cfg0.N)); iexact HO

/-- @main as the list of the three. -/
abbrev segs : List (Pipeline.Seg (pcfgs (F := F)) adm (dats m) () defs₀ Variants.none Lv lv) :=
  [.host (seg0 m), .region (reg0 m), .host (seg1 m)]

set_option backward.isDefEq.respectTransparency.types false in
/-- THE RUN. At the compiled mesh, for any float values, from any memory with zero counters: every weakly fair execution
    of @main on the TensorCores terminates, nothing faulting, and every final state has each unscoped buffer at what the
    three segments leave in it. -/
theorem run_main : θ_run defs (onTc (τ := τ) (main (F := F))) ⟨m, fun _ => 0, ρ⟩
    (fun r => ∀ c : Dev nD, ∀ b ∈ Pipeline.ucRefs τ sig, r.2.mem (c, b) = Vfin m c b) :=
  Pipeline.θ_run_regions_kit (pcfgs (F := F)) adm (dats m) () cellOf_inj EP defs₀ Variants.none Lv lv m ρ main (segs m)
    (fun c Q => by rw [main_segs adm (dats m) () Variants.none Lv lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (c, b) = Vfin m c b)
    (hfin := fun c s' => by
      unfold StableHlo.held
      iintro ⟨Hh, HSI⟩
      ihave Hr := (pointsTo_read_all (Pipeline.ucRefs τ sig) (fun b => ((c : Thread nD τ).1, b)) (Vfin m c) s') $$ [Hh HSI]
      · isplitl [Hh] <;> iassumption
      icases Hr with ⟨%hr, HSI⟩
      imodintro
      isplitr; · ipureintro; exact hr
      iexact HSI)
    (hQ := fun _ h => h)

/-! ## The frame: the three arguments end as they began -/

/-- The two operations before the region write only their own results; -/
theorem not_written0 (b : Ref sig .tc) (hb : b ≠ main_call0_v0 ∧ b ≠ main_call0_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.TRef.reshape, StableHlo.TRef.unary, StableHlo.unary_writes, StableHlo.reshape_writes, Finset.mem_singleton] <;>
    exact StableHlo.devRef_ne_of_ne ‹_›

/-- the two after it likewise. -/
theorem not_written1 (b : Ref sig .tc) (hb : b ≠ main_call0_v3 ∧ b ≠ main_v0) :
    ∀ op ∈ (hostOps1 (F := F)), Proc.devRef .tc b ∉ op.writes := by
  obtain ⟨h0, h1⟩ := hb
  intro op hop
  simp only [List.mem_cons, List.mem_nil_iff, or_false] at hop
  rcases hop with rfl | rfl <;>
    simp only [StableHlo.TRef.reshape, StableHlo.TRef.unary, StableHlo.unary_writes, StableHlo.reshape_writes, Finset.mem_singleton] <;>
    exact StableHlo.devRef_ne_of_ne ‹_›

/-- A buffer none of the four operations writes, and that is not the region's result, ends as launched. -/
theorem Vfin_kept (c : Dev nD) (b : Ref sig .tc) (h0 : b ≠ main_call0_v0 ∧ b ≠ main_call0_v1) (h1 : b ≠ main_call0_v3 ∧ b ≠ main_v0)
    (h2 : b ≠ main_call0_v2) : Vfin m c (Proc.devRef .tc b) = m (c, Proc.devRef .tc b) :=
  (StableHlo.after_of_forall_not_mem (b := Proc.devRef .tc b) hostOps1 (Vmid m c) (not_written1 b h1)).trans
    ((Vmid_of_ne m c b h2).trans
      (StableHlo.after_of_forall_not_mem (b := Proc.devRef .tc b) hostOps0 (V₀ m c) (not_written0 b h0)))

theorem mem_uc (b : Ref sig .tc) (h : b.isScoped = false) : Proc.devRef .tc b ∈ Pipeline.ucRefs τ sig := by
  unfold Pipeline.ucRefs StableHlo.tcRefs
  simp only [Finset.mem_filter, Finset.mem_map, Finset.mem_univ, true_and]
  exact ⟨⟨b, rfl⟩, by simpa using h⟩

/-- THE FRAME, at any float instance: @main runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 rfl)).trans (Vfin_kept m c main_arg0 (by decide) (by decide) (by decide)),
     (h c _ (mem_uc main_arg1 rfl)).trans (Vfin_kept m c main_arg1 (by decide) (by decide) (by decide)),
     (h c _ (mem_uc main_arg2 rfl)).trans (Vfin_kept m c main_arg2 (by decide) (by decide) (by decide))⟩) (run_main m ρ)

end Cert.KernelIdeal.Hand

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«168719_g47425028882858_cont_8to1c4_122_16_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.Spec.lean ====
/-
  The function both programs compute, index by index, over the extended reals:

      out[b, t, m] = Σ_k max(Σ_j x[b, t, j] · W1[k, j], 0) · W2[m, k]

  a two-layer feed-forward block with a rectifier between the layers, no bias. The zero of the rectifier is kept as the
  float word both programs print for it.
-/
import Idealize.ShloMosaic.PureOps.Ideal
import Idealize.ShloMosaic.Lib.ValueIdx

noncomputable section

open scoped BigOperators

namespace Cert.Spec

open Idealize.ShloMosaic Idealize.ShloMosaic.ValueIdx

/-- The hidden activation of token (b, t) at hidden unit k: the rectified inner product of the token with row k of W1. -/
def hidden (x : (⟨3, ![8, 4, 4096]⟩ : Shape).Idx → EReal) (W1 : (⟨2, ![14336, 4096]⟩ : Shape).Idx → EReal)
    (b : Fin 8) (t : Fin 4) (k : Fin 14336) : EReal :=
  max (∑ j : Fin 4096, x (ix3 b t j) * W1 (ix2 k j)) (Ideal.ofBits .f32 0x00000000#32)

/-- The block's output: token (b, t)'s hidden activations against row m of W2. -/
def ffn (x : (⟨3, ![8, 4, 4096]⟩ : Shape).Idx → EReal) (W1 : (⟨2, ![14336, 4096]⟩ : Shape).Idx → EReal)
    (W2 : (⟨2, ![4096, 14336]⟩ : Shape).Idx → EReal) : (⟨3, ![8, 4, 4096]⟩ : Shape).Idx → EReal :=
  fun i => ∑ k : Fin 14336, hidden x W1 (i 0) (i 1) k * W2 (ix2 (i 2) k)

end Cert.Spec

end
-- ==== Proof.IdealValue.lean ====
/-
  The kernel's value at the ideal instance: what the scratch, the output block and the result array hold, entry by entry.
-/
import proofs.«168719_g47425028882858_cont_8to1c4_122_16_alg».proof.Proof.IdealLaunch
import proofs.«168719_g47425028882858_cont_8to1c4_122_16_alg».proof.Proof.LibPlainDot
import proofs.«168719_g47425028882858_cont_8to1c4_122_16_alg».proof.Proof.LibRank3
import proofs.«168719_g47425028882858_cont_8to1c4_122_16_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-! ## The arguments, and the buffers the region finds -/

theorem V_arg1 (c : Dev nD) : V m c main_arg1 = m ((c : Thread nD τ).loc main_arg1) :=
  StableHlo.after_of_forall_not_mem (b := Proc.devRef .tc main_arg1) hostOps0 (V₀ m c) (not_written0 main_arg1 (by decide))
theorem V_arg2 (c : Dev nD) : V m c main_arg2 = m ((c : Thread nD τ).loc main_arg2) :=
  StableHlo.after_of_forall_not_mem (b := Proc.devRef .tc main_arg2) hostOps0 (V₀ m c) (not_written0 main_arg2 (by decide))

/-- xᵀ as the region finds it: column 4·b + t of it is token (b, t). -/
theorem xt_apply (c : Dev nD) (b : Fin 8) (t : Fin 4) (q : Fin 4096) :
    (V m c main_call0_v1 : S4096x32.Idx → Elt Ideal .f32) (ix2 q (Cert.LibRank3.flat 32 rfl b t))
      = (m ((c : Thread nD τ).loc main_arg0) : S8x4x4096.Idx → Elt Ideal .f32) (ix3 b t q) := by
  have e : (V m c main_call0_v1 : S4096x32.Idx → Elt Ideal .f32)
      = transpose S4096x32 [1, 0] (shapeCast S32x4096 (m ((c : Thread nD τ).loc main_arg0) : S8x4x4096.Idx → Elt Ideal .f32) shapeCasts_S8x4x4096_S32x4096)
          transposes_S32x4096_S4096x32_1_0 := by
    dsimp only [V, Vent, hostOps0]; after_results; rfl
  exact (congrFun e _).trans ((Cert.LibPlainDot.transpose_swap_apply 32 4096 _ _ q (Cert.LibRank3.flat 32 rfl b t)).trans
    (Cert.LibRank3.cast_abc_nc 32 rfl _ _ b t q))

/-! ## The index maps over the grid -/

/-- First phase: W1's four windows sit on row-blocks 4·t … 4·t + 3 (of 128 rows); xᵀ's window is the whole array. -/
theorem idx_first : ∀ t : Fin cfg0.N, t.val < 28 →
    win0_0.index t (0 : Fin 2) = 0 ∧ win0_0.index t (1 : Fin 2) = 0
    ∧ win0_1.index t (0 : Fin 2) = 4 * t.val + 0 ∧ win0_1.index t (1 : Fin 2) = 0
    ∧ win0_2.index t (0 : Fin 2) = 4 * t.val + 1 ∧ win0_2.index t (1 : Fin 2) = 0
    ∧ win0_3.index t (0 : Fin 2) = 4 * t.val + 2 ∧ win0_3.index t (1 : Fin 2) = 0
    ∧ win0_4.index t (0 : Fin 2) = 4 * t.val + 3 ∧ win0_4.index t (1 : Fin 2) = 0 :=
  (by decide +kernel : ∀ t : Fin grid0.N, t.val < 28 → _)

/-- Second phase: W2's four windows sit on row-blocks 4·(t − 28) … + 3 (of 64 rows), the result's on row-block t − 28
    (of 256 rows). -/
theorem idx_second : ∀ t : Fin cfg0.N, 28 ≤ t.val →
    win0_5.index t (0 : Fin 2) = 4 * (t.val - 28) + 0 ∧ win0_5.index t (1 : Fin 2) = 0
    ∧ win0_6.index t (0 : Fin 2) = 4 * (t.val - 28) + 1 ∧ win0_6.index t (1 : Fin 2) = 0
    ∧ win0_7.index t (0 : Fin 2) = 4 * (t.val - 28) + 2 ∧ win0_7.index t (1 : Fin 2) = 0
    ∧ win0_8.index t (0 : Fin 2) = 4 * (t.val - 28) + 3 ∧ win0_8.index t (1 : Fin 2) = 0
    ∧ win0_9.index t (0 : Fin 2) = t.val - 28 ∧ win0_9.index t (1 : Fin 2) = 0 :=
  (by decide +kernel : ∀ t : Fin grid0.N, 28 ≤ t.val → _)

/-! ## Blocks read at an entry -/

/-- xᵀ's block is xᵀ. -/
theorem iblk0_apply (c : Dev nD) (t : Fin cfg0.N) (ht : t.val < 28) (x : S4096x32.Idx) :
    iblk m c 0 t x = (V m c main_call0_v1 : S4096x32.Idx → Elt Ideal .f32) x := by
  obtain ⟨e0, e1, -⟩ := idx_first t ht
  show V m c main_call0_v1 (((cfg0.win 0).blk t).view.emb x) = V m c main_call0_v1 x
  congr 1
  funext a; apply Fin.ext
  match a with
  | ⟨0, _⟩ => show win0_0.index t (0 : Fin 2) * 4096 + 1 * (x 0).val = (x 0).val; omega
  | ⟨1, _⟩ => show win0_0.index t (1 : Fin 2) * 32 + 1 * (x 1).val = (x 1).val; omega

/-- Row l of W1's window 1 at point t is row 128·(4·t + 0) + l of W1. -/
theorem iblk1_apply (c : Dev nD) (t : Fin cfg0.N) (ht : t.val < 28) (x : S128x4096.Idx) (i : S14336x4096.Idx)
    (h0 : (i 0).val = 512 * t.val + 0 + (x 0).val) (h1 : (i 1).val = (x 1).val) :
    iblk m c 1 t x = (V m c main_arg1 : S14336x4096.Idx → Elt Ideal .f32) i := by
  obtain ⟨-, -, e10, e11, e20, e21, e30, e31, e40, e41⟩ := idx_first t ht
  show V m c main_arg1 (((cfg0.win 1).blk t).view.emb x) = V m c main_arg1 i
  congr 1
  funext a; apply Fin.ext
  match a with
  | ⟨0, _⟩ => show win0_1.index t (0 : Fin 2) * 128 + 1 * (x 0).val = (i 0).val; omega
  | ⟨1, _⟩ => show win0_1.index t (1 : Fin 2) * 4096 + 1 * (x 1).val = (i 1).val; omega

/-- Row l of W1's window 2 at point t is row 128·(4·t + 1) + l of W1. -/
theorem iblk2_apply (c : Dev nD) (t : Fin cfg0.N) (ht : t.val < 28) (x : S128x4096.Idx) (i : S14336x4096.Idx)
    (h0 : (i 0).val = 512 * t.val + 128 + (x 0).val) (h1 : (i 1).val = (x 1).val) :
    iblk m c 2 t x = (V m c main_arg1 : S14336x4096.Idx → Elt Ideal .f32) i := by
  obtain ⟨-, -, e10, e11, e20, e21, e30, e31, e40, e41⟩ := idx_first t ht
  show V m c main_arg1 (((cfg0.win 2).blk t).view.emb x) = V m c main_arg1 i
  congr 1
  funext a; apply Fin.ext
  match a with
  | ⟨0, _⟩ => show win0_2.index t (0 : Fin 2) * 128 + 1 * (x 0).val = (i 0).val; omega
  | ⟨1, _⟩ => show win0_2.index t (1 : Fin 2) * 4096 + 1 * (x 1).val = (i 1).val; omega

/-- Row l of W1's window 3 at point t is row 128·(4·t + 2) + l of W1. -/
theorem iblk3_apply (c : Dev nD) (t : Fin cfg0.N) (ht : t.val < 28) (x : S128x4096.Idx) (i : S14336x4096.Idx)
    (h0 : (i 0).val = 512 * t.val + 256 + (x 0).val) (h1 : (i 1).val = (x 1).val) :
    iblk m c 3 t x = (V m c main_arg1 : S14336x4096.Idx → Elt Ideal .f32) i := by
  obtain ⟨-, -, e10, e11, e20, e21, e30, e31, e40, e41⟩ := idx_first t ht
  show V m c main_arg1 (((cfg0.win 3).blk t).view.emb x) = V m c main_arg1 i
  congr 1
  funext a; apply Fin.ext
  match a with
  | ⟨0, _⟩ => show win0_3.index t (0 : Fin 2) * 128 + 1 * (x 0).val = (i 0).val; omega
  | ⟨1, _⟩ => show win0_3.index t (1 : Fin 2) * 4096 + 1 * (x 1).val = (i 1).val; omega

/-- Row l of W1's window 4 at point t is row 128·(4·t + 3) + l of W1. -/
theorem iblk4_apply (c : Dev nD) (t : Fin cfg0.N) (ht : t.val < 28) (x : S128x4096.Idx) (i : S14336x4096.Idx)
    (h0 : (i 0).val = 512 * t.val + 384 + (x 0).val) (h1 : (i 1).val = (x 1).val) :
    iblk m c 4 t x = (V m c main_arg1 : S14336x4096.Idx → Elt Ideal .f32) i := by
  obtain ⟨-, -, e10, e11, e20, e21, e30, e31, e40, e41⟩ := idx_first t ht
  show V m c main_arg1 (((cfg0.win 4).blk t).view.emb x) = V m c main_arg1 i
  congr 1
  funext a; apply Fin.ext
  match a with
  | ⟨0, _⟩ => show win0_4.index t (0 : Fin 2) * 128 + 1 * (x 0).val = (i 0).val; omega
  | ⟨1, _⟩ => show win0_4.index t (1 : Fin 2) * 4096 + 1 * (x 1).val = (i 1).val; omega

/-- Row l of W2's window 5 at point t is row 256·(t − 28) + 0 + l of W2. -/
theorem iblk5_apply (c : Dev nD) (t : Fin cfg0.N) (ht : 28 ≤ t.val) (x : S64x14336.Idx) (i : S4096x14336.Idx)
    (h0 : (i 0).val = 256 * (t.val - 28) + 0 + (x 0).val) (h1 : (i 1).val = (x 1).val) :
    iblk m c 5 t x = (V m c main_arg2 : S4096x14336.Idx → Elt Ideal .f32) i := by
  obtain ⟨e50, e51, e60, e61, e70, e71, e80, e81, -, -⟩ := idx_second t ht
  show V m c main_arg2 (((cfg0.win 5).blk t).view.emb x) = V m c main_arg2 i
  congr 1
  funext a; apply Fin.ext
  match a with
  | ⟨0, _⟩ => show win0_5.index t (0 : Fin 2) * 64 + 1 * (x 0).val = (i 0).val; omega
  | ⟨1, _⟩ => show win0_5.index t (1 : Fin 2) * 14336 + 1 * (x 1).val = (i 1).val; omega

/-- Row l of W2's window 6 at point t is row 256·(t − 28) + 64 + l of W2. -/
theorem iblk6_apply (c : Dev nD) (t : Fin cfg0.N) (ht : 28 ≤ t.val) (x : S64x14336.Idx) (i : S4096x14336.Idx)
    (h0 : (i 0).val = 256 * (t.val - 28) + 64 + (x 0).val) (h1 : (i 1).val = (x 1).val) :
    iblk m c 6 t x = (V m c main_arg2 : S4096x14336.Idx → Elt Ideal .f32) i := by
  obtain ⟨e50, e51, e60, e61, e70, e71, e80, e81, -, -⟩ := idx_second t ht
  show V m c main_arg2 (((cfg0.win 6).blk t).view.emb x) = V m c main_arg2 i
  congr 1
  funext a; apply Fin.ext
  match a with
  | ⟨0, _⟩ => show win0_6.index t (0 : Fin 2) * 64 + 1 * (x 0).val = (i 0).val; omega
  | ⟨1, _⟩ => show win0_6.index t (1 : Fin 2) * 14336 + 1 * (x 1).val = (i 1).val; omega

/-- Row l of W2's window 7 at point t is row 256·(t − 28) + 128 + l of W2. -/
theorem iblk7_apply (c : Dev nD) (t : Fin cfg0.N) (ht : 28 ≤ t.val) (x : S64x14336.Idx) (i : S4096x14336.Idx)
    (h0 : (i 0).val = 256 * (t.val - 28) + 128 + (x 0).val) (h1 : (i 1).val = (x 1).val) :
    iblk m c 7 t x = (V m c main_arg2 : S4096x14336.Idx → Elt Ideal .f32) i := by
  obtain ⟨e50, e51, e60, e61, e70, e71, e80, e81, -, -⟩ := idx_second t ht
  show V m c main_arg2 (((cfg0.win 7).blk t).view.emb x) = V m c main_arg2 i
  congr 1
  funext a; apply Fin.ext
  match a with
  | ⟨0, _⟩ => show win0_7.index t (0 : Fin 2) * 64 + 1 * (x 0).val = (i 0).val; omega
  | ⟨1, _⟩ => show win0_7.index t (1 : Fin 2) * 14336 + 1 * (x 1).val = (i 1).val; omega

/-- Row l of W2's window 8 at point t is row 256·(t − 28) + 192 + l of W2. -/
theorem iblk8_apply (c : Dev nD) (t : Fin cfg0.N) (ht : 28 ≤ t.val) (x : S64x14336.Idx) (i : S4096x14336.Idx)
    (h0 : (i 0).val = 256 * (t.val - 28) + 192 + (x 0).val) (h1 : (i 1).val = (x 1).val) :
    iblk m c 8 t x = (V m c main_arg2 : S4096x14336.Idx → Elt Ideal .f32) i := by
  obtain ⟨e50, e51, e60, e61, e70, e71, e80, e81, -, -⟩ := idx_second t ht
  show V m c main_arg2 (((cfg0.win 8).blk t).view.emb x) = V m c main_arg2 i
  congr 1
  funext a; apply Fin.ext
  match a with
  | ⟨0, _⟩ => show win0_8.index t (0 : Fin 2) * 64 + 1 * (x 0).val = (i 0).val; omega
  | ⟨1, _⟩ => show win0_8.index t (1 : Fin 2) * 14336 + 1 * (x 1).val = (i 1).val; omega

/-! ## The payloads at an entry -/

/-- The rectified product of a 128-row block of W1 with xᵀ, at (l, r). -/
theorem relu_block_apply (x2 : FVec Ideal S128x4096 .f32) (x1 : FVec Ideal S4096x32 .f32) (l : Fin 128) (r : Fin 32) :
    (maximumf (matmul (φ₁ := .f32) (φ₂ := .f32) dot_S128x4096_S4096x32_S128x32_1_0_0_1_n_n none x2 x1 (constant S128x32 .f32 0x00000000#32))
        (broadcast S128x32 (Scalar.ofBits .f32 0x00000000#32)) : FVec Ideal S128x32 .f32) (ix2 l r)
      = max (∑ q : Fin 4096, x2 (ix2 l q) * x1 (ix2 q r)) (Ideal.ofBits .f32 0x00000000#32) :=
  congrArg (fun z => max z (Ideal.ofBits .f32 0x00000000#32)) (matmul_plain_zero_apply 128 4096 32 none x2 x1 l r)

theorem pay7_apply (x2 : Vec Ideal S128x4096 .f32) (x1 : Vec Ideal S4096x32 .f32) (l : Fin 128) (r : Fin 32) :
    k0_pay7 x2 x1 (ix2 l r) = max (∑ q : Fin 4096, x2 (ix2 l q) * x1 (ix2 q r)) (Ideal.ofBits .f32 0x00000000#32) := by
  unfold k0_pay7; simp only [shapeCast_self]; exact relu_block_apply x2 x1 l r
theorem pay8_apply (x2 : Vec Ideal S128x4096 .f32) (x1 : Vec Ideal S4096x32 .f32) (l : Fin 128) (r : Fin 32) :
    k0_pay8 x2 x1 (ix2 l r) = max (∑ q : Fin 4096, x2 (ix2 l q) * x1 (ix2 q r)) (Ideal.ofBits .f32 0x00000000#32) := by
  unfold k0_pay8; simp only [shapeCast_self]; exact relu_block_apply x2 x1 l r
theorem pay19_apply (x2 : Vec Ideal S128x4096 .f32) (x1 : Vec Ideal S4096x32 .f32) (l : Fin 128) (r : Fin 32) :
    k0_pay1 (k0_pay9 x2 x1) (ix2 l r) = max (∑ q : Fin 4096, x2 (ix2 l q) * x1 (ix2 q r)) (Ideal.ofBits .f32 0x00000000#32) := by
  unfold k0_pay1 k0_pay9; simp only [shapeCast_self]; exact relu_block_apply x2 x1 l r
theorem pay2_apply (x2 : Vec Ideal S128x4096 .f32) (x1 : Vec Ideal S4096x32 .f32) (l : Fin 128) (r : Fin 32) :
    k0_pay2 x2 x1 (ix2 l r) = max (∑ q : Fin 4096, x2 (ix2 l q) * x1 (ix2 q r)) (Ideal.ofBits .f32 0x00000000#32) := by
  unfold k0_pay2; simp only [shapeCast_self]; exact relu_block_apply x2 x1 l r

/-- The product of a 64-row block of W2 with the hidden activations, at (l, r). -/
theorem pay3_apply (x6 : Vec Ideal S64x14336 .f32) (xs : Vec Ideal S14336x32 .f32) (l : Fin 64) (r : Fin 32) :
    k0_pay3 x6 xs (ix2 l r) = ∑ k : Fin 14336, x6 (ix2 l k) * xs (ix2 k r) := by
  unfold k0_pay3; exact matmul_plain_zero_apply 64 14336 32 none (φ₁ := .f32) (φ₂ := .f32) x6 xs l r
/-- The product of a 64-row block of W2 with the hidden activations, at (l, r). -/
theorem pay4_apply (x6 : Vec Ideal S64x14336 .f32) (xs : Vec Ideal S14336x32 .f32) (l : Fin 64) (r : Fin 32) :
    k0_pay4 x6 xs (ix2 l r) = ∑ k : Fin 14336, x6 (ix2 l k) * xs (ix2 k r) := by
  unfold k0_pay4; exact matmul_plain_zero_apply 64 14336 32 none (φ₁ := .f32) (φ₂ := .f32) x6 xs l r
/-- The product of a 64-row block of W2 with the hidden activations, at (l, r). -/
theorem pay5_apply (x6 : Vec Ideal S64x14336 .f32) (xs : Vec Ideal S14336x32 .f32) (l : Fin 64) (r : Fin 32) :
    k0_pay5 x6 xs (ix2 l r) = ∑ k : Fin 14336, x6 (ix2 l k) * xs (ix2 k r) := by
  unfold k0_pay5; exact matmul_plain_zero_apply 64 14336 32 none (φ₁ := .f32) (φ₂ := .f32) x6 xs l r
/-- The product of a 64-row block of W2 with the hidden activations, at (l, r). -/
theorem pay6_apply (x6 : Vec Ideal S64x14336 .f32) (xs : Vec Ideal S14336x32 .f32) (l : Fin 64) (r : Fin 32) :
    k0_pay6 x6 xs (ix2 l r) = ∑ k : Fin 14336, x6 (ix2 l k) * xs (ix2 k r) := by
  unfold k0_pay6; exact matmul_plain_zero_apply 64 14336 32 none (φ₁ := .f32) (φ₂ := .f32) x6 xs l r

/-! ## The hidden activations, read -/

/-- W1, xᵀ and W2 as the region finds them, as arrays of extended reals. -/
abbrev W1v (c : Dev nD) : S14336x4096.Idx → EReal := V m c main_arg1
abbrev XTv (c : Dev nD) : S4096x32.Idx → EReal := V m c main_call0_v1
abbrev W2v (c : Dev nD) : S4096x14336.Idx → EReal := V m c main_arg2

/-- Row k of W1 against column r of xᵀ, rectified. -/
def hrow (c : Dev nD) (k : Fin 14336) (r : Fin 32) : EReal :=
  max (∑ q : Fin 4096, W1v m c (ix2 k q) * XTv m c (ix2 q r)) (Ideal.ofBits .f32 0x00000000#32)

/-- Where the r-th row-block of point t's puts its local entry x. -/
theorem emb_row (t : Fin cfg0.N) (ht : t.val < 28) (r : Fin 4) (x : S128x32.Idx) :
    (((Rect.unit (s := S14336x32) (k0_off1 (grid0.coords t) (BitVec.ofNat 32 (128 * r.val))) S128x32.size
      (k0_off1_inb (grid0.coords t) ((hcond1 t).mpr ht) r)).emb x) 0).val = 512 * t.val + 128 * r.val + (x 0).val := by
  rw [Rect.emb_apply]
  show (k0_off1 (grid0.coords t) (BitVec.ofNat 32 (128 * r.val))) 0 + 1 * (x 0).val = _
  rw [off_rows t ht r]
  show 512 * t.val + 128 * r.val + 1 * (x 0).val = _
  omega
theorem emb_col (t : Fin cfg0.N) (ht : t.val < 28) (r : Fin 4) (x : S128x32.Idx) :
    (((Rect.unit (s := S14336x32) (k0_off1 (grid0.coords t) (BitVec.ofNat 32 (128 * r.val))) S128x32.size
      (k0_off1_inb (grid0.coords t) ((hcond1 t).mpr ht) r)).emb x) 1).val = (x 1).val := by
  rw [Rect.emb_apply]
  show (k0_off1 (grid0.coords t) (BitVec.ofNat 32 (128 * r.val))) 1 + 1 * (x 1).val = _
  rw [off_rows t ht r]
  show 0 + 1 * (x 1).val = _
  omega

/-- Row-block 3 of a first-phase point holds `hrow` at the rows it covers. -/
theorem piece3_at (c : Dev nD) (t : Fin cfg0.N) (ht : t.val < 28) (l : Fin 128) (r : Fin 32) (k' : Fin 14336) (r' : Fin 32)
    (hk : k'.val = 512 * t.val + 384 + l.val) (hr : r'.val = r.val) :
    k0_pay2 (iblk m c 4 t) (iblk m c 0 t) (ix2 l r) = hrow m c k' r' := by
  obtain rfl : r' = r := Fin.ext hr
  rw [pay2_apply]
  unfold hrow
  refine congrArg (fun z => max z (Ideal.ofBits .f32 0x00000000#32)) (Finset.sum_congr rfl fun q _ => ?_)
  rw [iblk4_apply m c t ht (ix2 l q) (ix2 k' q) hk rfl, iblk0_apply m c t ht (ix2 q r')]

theorem piece3_agrees (c : Dev nD) (t : Fin cfg0.N) (ht : t.val < 28) (x : S128x32.Idx) :
    k0_pay2 (iblk m c 4 t) (iblk m c 0 t) x
      = (fun y : S14336x32.Idx => hrow m c (y 0) (y 1))
          ((Rect.unit (s := S14336x32) (k0_off1 (grid0.coords t) (BitVec.ofNat 32 (128 * (3 : Fin 4).val))) S128x32.size
            (k0_off1_inb (grid0.coords t) ((hcond1 t).mpr ht) 3)).emb x) := by
  obtain ⟨l, r, rfl⟩ : ∃ (l : Fin 128) (r : Fin 32), x = ix2 l r := ⟨x 0, x 1, eq_ix2 x⟩
  exact piece3_at m c t ht l r _ _ ((emb_row t ht 3 (ix2 l r)).trans (by show 512 * t.val + 128 * (3 : Fin 4).val + l.val = _; rfl))
    (emb_col t ht 3 (ix2 l r))

/-- Row-block 2 of a first-phase point holds `hrow` at the rows it covers. -/
theorem piece2_at (c : Dev nD) (t : Fin cfg0.N) (ht : t.val < 28) (l : Fin 128) (r : Fin 32) (k' : Fin 14336) (r' : Fin 32)
    (hk : k'.val = 512 * t.val + 256 + l.val) (hr : r'.val = r.val) :
    k0_pay1 (k0_pay9 (iblk m c 3 t) (iblk m c 0 t)) (ix2 l r) = hrow m c k' r' := by
  obtain rfl : r' = r := Fin.ext hr
  rw [pay19_apply]
  unfold hrow
  refine congrArg (fun z => max z (Ideal.ofBits .f32 0x00000000#32)) (Finset.sum_congr rfl fun q _ => ?_)
  rw [iblk3_apply m c t ht (ix2 l q) (ix2 k' q) hk rfl, iblk0_apply m c t ht (ix2 q r')]

theorem piece2_agrees (c : Dev nD) (t : Fin cfg0.N) (ht : t.val < 28) (x : S128x32.Idx) :
    k0_pay1 (k0_pay9 (iblk m c 3 t) (iblk m c 0 t)) x
      = (fun y : S14336x32.Idx => hrow m c (y 0) (y 1))
          ((Rect.unit (s := S14336x32) (k0_off1 (grid0.coords t) (BitVec.ofNat 32 (128 * (2 : Fin 4).val))) S128x32.size
            (k0_off1_inb (grid0.coords t) ((hcond1 t).mpr ht) 2)).emb x) := by
  obtain ⟨l, r, rfl⟩ : ∃ (l : Fin 128) (r : Fin 32), x = ix2 l r := ⟨x 0, x 1, eq_ix2 x⟩
  exact piece2_at m c t ht l r _ _ ((emb_row t ht 2 (ix2 l r)).trans (by show 512 * t.val + 128 * (2 : Fin 4).val + l.val = _; rfl))
    (emb_col t ht 2 (ix2 l r))

/-- Row-block 1 of a first-phase point holds `hrow` at the rows it covers. -/
theorem piece1_at (c : Dev nD) (t : Fin cfg0.N) (ht : t.val < 28) (l : Fin 128) (r : Fin 32) (k' : Fin 14336) (r' : Fin 32)
    (hk : k'.val = 512 * t.val + 128 + l.val) (hr : r'.val = r.val) :
    k0_pay8 (iblk m c 2 t) (iblk m c 0 t) (ix2 l r) = hrow m c k' r' := by
  obtain rfl : r' = r := Fin.ext hr
  rw [pay8_apply]
  unfold hrow
  refine congrArg (fun z => max z (Ideal.ofBits .f32 0x00000000#32)) (Finset.sum_congr rfl fun q _ => ?_)
  rw [iblk2_apply m c t ht (ix2 l q) (ix2 k' q) hk rfl, iblk0_apply m c t ht (ix2 q r')]

theorem piece1_agrees (c : Dev nD) (t : Fin cfg0.N) (ht : t.val < 28) (x : S128x32.Idx) :
    k0_pay8 (iblk m c 2 t) (iblk m c 0 t) x
      = (fun y : S14336x32.Idx => hrow m c (y 0) (y 1))
          ((Rect.unit (s := S14336x32) (k0_off1 (grid0.coords t) (BitVec.ofNat 32 (128 * (1 : Fin 4).val))) S128x32.size
            (k0_off1_inb (grid0.coords t) ((hcond1 t).mpr ht) 1)).emb x) := by
  obtain ⟨l, r, rfl⟩ : ∃ (l : Fin 128) (r : Fin 32), x = ix2 l r := ⟨x 0, x 1, eq_ix2 x⟩
  exact piece1_at m c t ht l r _ _ ((emb_row t ht 1 (ix2 l r)).trans (by show 512 * t.val + 128 * (1 : Fin 4).val + l.val = _; rfl))
    (emb_col t ht 1 (ix2 l r))

/-- Row-block 0 of a first-phase point holds `hrow` at the rows it covers. -/
theorem piece0_at (c : Dev nD) (t : Fin cfg0.N) (ht : t.val < 28) (l : Fin 128) (r : Fin 32) (k' : Fin 14336) (r' : Fin 32)
    (hk : k'.val = 512 * t.val + 0 + l.val) (hr : r'.val = r.val) :
    k0_pay7 (iblk m c 1 t) (iblk m c 0 t) (ix2 l r) = hrow m c k' r' := by
  obtain rfl : r' = r := Fin.ext hr
  rw [pay7_apply]
  unfold hrow
  refine congrArg (fun z => max z (Ideal.ofBits .f32 0x00000000#32)) (Finset.sum_congr rfl fun q _ => ?_)
  rw [iblk1_apply m c t ht (ix2 l q) (ix2 k' q) hk rfl, iblk0_apply m c t ht (ix2 q r')]

theorem piece0_agrees (c : Dev nD) (t : Fin cfg0.N) (ht : t.val < 28) (x : S128x32.Idx) :
    k0_pay7 (iblk m c 1 t) (iblk m c 0 t) x
      = (fun y : S14336x32.Idx => hrow m c (y 0) (y 1))
          ((Rect.unit (s := S14336x32) (k0_off1 (grid0.coords t) (BitVec.ofNat 32 (128 * (0 : Fin 4).val))) S128x32.size
            (k0_off1_inb (grid0.coords t) ((hcond1 t).mpr ht) 0)).emb x) := by
  obtain ⟨l, r, rfl⟩ : ∃ (l : Fin 128) (r : Fin 32), x = ix2 l r := ⟨x 0, x 1, eq_ix2 x⟩
  exact piece0_at m c t ht l r _ _ ((emb_row t ht 0 (ix2 l r)).trans (by show 512 * t.val + 128 * (0 : Fin 4).val + l.val = _; rfl))
    (emb_col t ht 0 (ix2 l r))

/-- A row of point t's is under one of its four row-blocks. -/
theorem hidden_cover (c : Dev nD) (t : Fin cfg0.N) (ht : t.val < 28) (y : S14336x32.Idx)
    (hlo : 512 * t.val ≤ (y 0).val) (hhi : (y 0).val < 512 * t.val + 512) :
    ∃ pc ∈ hiddenPieces (grid0.coords t) ((hcond1 t).mpr ht) (iblk m c 0 t) (iblk m c 1 t) (iblk m c 2 t) (iblk m c 3 t) (iblk m c 4 t),
      y ∈ pc.1.set := by
  unfold hiddenPieces
  have h4 : (y 0).val < 512 * t.val + 128 ∨ (512 * t.val + 128 ≤ (y 0).val ∧ (y 0).val < 512 * t.val + 256)
      ∨ (512 * t.val + 256 ≤ (y 0).val ∧ (y 0).val < 512 * t.val + 384) ∨ 512 * t.val + 384 ≤ (y 0).val := by omega
  rcases h4 with h | ⟨h, h'⟩ | ⟨h, h'⟩ | h
  · exact ⟨_, List.mem_cons_of_mem _ (List.mem_cons_of_mem _ (List.mem_cons_of_mem _ List.mem_cons_self)),
      mem_hidden_piece t ht y 0 (by omega) (by omega)⟩
  · exact ⟨_, List.mem_cons_of_mem _ (List.mem_cons_of_mem _ List.mem_cons_self), mem_hidden_piece t ht y 1 (by omega) (by omega)⟩
  · exact ⟨_, List.mem_cons_of_mem _ List.mem_cons_self, mem_hidden_piece t ht y 2 (by omega) (by omega)⟩
  · exact ⟨_, List.mem_cons_self, mem_hidden_piece t ht y 3 (by omega) (by omega)⟩

/-- THE HIDDEN ACTIVATIONS: entry (k, r) of what the first phase leaves in the scratch is row k of W1 against column r of
    xᵀ, rectified. -/
theorem Hfun_apply (c : Dev nD) (y : S14336x32.Idx) : Hfun m c y = hrow m c (y 0) (y 1) := by
  unfold Hfun
  have hp := rowPoint_lt y
  have hy := row_lt y
  refine View.canon_apply_of_pieces (fun y : S14336x32.Idx => hrow m c (y 0) (y 1)) _ (fun pc hpc x => ?_) y
    (hidden_cover m c (rowPoint y) hp y (by show 512 * ((y 0).val / 512) ≤ _; omega) (by show _ < 512 * ((y 0).val / 512) + 512; omega))
  unfold hiddenPieces at hpc
  simp only [List.mem_cons, List.mem_nil_iff, or_false] at hpc
  rcases hpc with rfl | rfl | rfl | rfl
  · exact piece3_agrees m c (rowPoint y) hp x
  · exact piece2_agrees m c (rowPoint y) hp x
  · exact piece1_agrees m c (rowPoint y) hp x
  · exact piece0_agrees m c (rowPoint y) hp x

/-! ## The output block and the result array -/

/-- The result array as the region leaves it: row i of W2 against column r of the hidden activations. -/
def Gfin (c : Dev nD) : S4096x32.Idx → EReal := fun i =>
  ∑ k : Fin 14336, W2v m c (ix2 (i 0) k) * (Hfun m c : S14336x32.Idx → EReal) (ix2 k (i 1))

/-- The result's block is written back exactly at the points of the second phase. -/
theorem flush9 : ∀ t : Fin cfg0.N, (cfg0.win 9).flush t = true ↔ 28 ≤ t.val :=
  (by decide +kernel : ∀ t : Fin grid0.N, (cfg0.win 9).flush t = true ↔ 28 ≤ t.val)

/-- Piece 3 of a second-phase point's output block holds the result array at the rows it covers. -/
theorem outpiece3_at (c : Dev nD) (t : Fin cfg0.N) (ht : 28 ≤ t.val) (l : Fin 64) (r : Fin 32) (i : S4096x32.Idx)
    (hi0 : (i 0).val = 256 * (t.val - 28) + 192 + l.val) (hi1 : (i 1).val = r.val) :
    k0_pay6 (iblk m c 8 t) (Hfun m c) (ix2 l r) = Gfin m c i := by
  rw [pay6_apply]
  unfold Gfin
  refine Finset.sum_congr rfl fun k _ => ?_
  rw [iblk8_apply m c t ht (ix2 l k) (ix2 (i 0) k) hi0 rfl, show (i 1 : Fin 32) = r from Fin.ext hi1]

theorem outpiece3_agrees (c : Dev nD) (t : Fin cfg0.N) (ht : 28 ≤ t.val) (x : S64x32.Idx) :
    k0_pay6 (iblk m c 8 t) (Hfun m c) x
      = Gfin m c (((cfg0.win 9).blk t).view.emb
          ((Rect.unit (s := S256x32) ![192, 0] S64x32.size inb_S256x32_S64x32_192_0).emb x)) := by
  obtain ⟨l, r, rfl⟩ : ∃ (l : Fin 64) (r : Fin 32), x = ix2 l r := ⟨x 0, x 1, eq_ix2 x⟩
  obtain ⟨-, -, -, -, -, -, -, -, e90, e91⟩ := idx_second t ht
  refine outpiece3_at m c t ht l r _ ?_ ?_
  · show win0_9.index t (0 : Fin 2) * 256 + 1 * (192 + 1 * l.val) = _
    omega
  · show win0_9.index t (1 : Fin 2) * 32 + 1 * (0 + 1 * r.val) = _
    omega

/-- Piece 2 of a second-phase point's output block holds the result array at the rows it covers. -/
theorem outpiece2_at (c : Dev nD) (t : Fin cfg0.N) (ht : 28 ≤ t.val) (l : Fin 64) (r : Fin 32) (i : S4096x32.Idx)
    (hi0 : (i 0).val = 256 * (t.val - 28) + 128 + l.val) (hi1 : (i 1).val = r.val) :
    k0_pay5 (iblk m c 7 t) (Hfun m c) (ix2 l r) = Gfin m c i := by
  rw [pay5_apply]
  unfold Gfin
  refine Finset.sum_congr rfl fun k _ => ?_
  rw [iblk7_apply m c t ht (ix2 l k) (ix2 (i 0) k) hi0 rfl, show (i 1 : Fin 32) = r from Fin.ext hi1]

theorem outpiece2_agrees (c : Dev nD) (t : Fin cfg0.N) (ht : 28 ≤ t.val) (x : S64x32.Idx) :
    k0_pay5 (iblk m c 7 t) (Hfun m c) x
      = Gfin m c (((cfg0.win 9).blk t).view.emb
          ((Rect.unit (s := S256x32) ![128, 0] S64x32.size inb_S256x32_S64x32_128_0).emb x)) := by
  obtain ⟨l, r, rfl⟩ : ∃ (l : Fin 64) (r : Fin 32), x = ix2 l r := ⟨x 0, x 1, eq_ix2 x⟩
  obtain ⟨-, -, -, -, -, -, -, -, e90, e91⟩ := idx_second t ht
  refine outpiece2_at m c t ht l r _ ?_ ?_
  · show win0_9.index t (0 : Fin 2) * 256 + 1 * (128 + 1 * l.val) = _
    omega
  · show win0_9.index t (1 : Fin 2) * 32 + 1 * (0 + 1 * r.val) = _
    omega

/-- Piece 1 of a second-phase point's output block holds the result array at the rows it covers. -/
theorem outpiece1_at (c : Dev nD) (t : Fin cfg0.N) (ht : 28 ≤ t.val) (l : Fin 64) (r : Fin 32) (i : S4096x32.Idx)
    (hi0 : (i 0).val = 256 * (t.val - 28) + 64 + l.val) (hi1 : (i 1).val = r.val) :
    k0_pay4 (iblk m c 6 t) (Hfun m c) (ix2 l r) = Gfin m c i := by
  rw [pay4_apply]
  unfold Gfin
  refine Finset.sum_congr rfl fun k _ => ?_
  rw [iblk6_apply m c t ht (ix2 l k) (ix2 (i 0) k) hi0 rfl, show (i 1 : Fin 32) = r from Fin.ext hi1]

theorem outpiece1_agrees (c : Dev nD) (t : Fin cfg0.N) (ht : 28 ≤ t.val) (x : S64x32.Idx) :
    k0_pay4 (iblk m c 6 t) (Hfun m c) x
      = Gfin m c (((cfg0.win 9).blk t).view.emb
          ((Rect.unit (s := S256x32) ![64, 0] S64x32.size inb_S256x32_S64x32_64_0).emb x)) := by
  obtain ⟨l, r, rfl⟩ : ∃ (l : Fin 64) (r : Fin 32), x = ix2 l r := ⟨x 0, x 1, eq_ix2 x⟩
  obtain ⟨-, -, -, -, -, -, -, -, e90, e91⟩ := idx_second t ht
  refine outpiece1_at m c t ht l r _ ?_ ?_
  · show win0_9.index t (0 : Fin 2) * 256 + 1 * (64 + 1 * l.val) = _
    omega
  · show win0_9.index t (1 : Fin 2) * 32 + 1 * (0 + 1 * r.val) = _
    omega

/-- Piece 0 of a second-phase point's output block holds the result array at the rows it covers. -/
theorem outpiece0_at (c : Dev nD) (t : Fin cfg0.N) (ht : 28 ≤ t.val) (l : Fin 64) (r : Fin 32) (i : S4096x32.Idx)
    (hi0 : (i 0).val = 256 * (t.val - 28) + 0 + l.val) (hi1 : (i 1).val = r.val) :
    k0_pay3 (iblk m c 5 t) (Hfun m c) (ix2 l r) = Gfin m c i := by
  rw [pay3_apply]
  unfold Gfin
  refine Finset.sum_congr rfl fun k _ => ?_
  rw [iblk5_apply m c t ht (ix2 l k) (ix2 (i 0) k) hi0 rfl, show (i 1 : Fin 32) = r from Fin.ext hi1]

theorem outpiece0_agrees (c : Dev nD) (t : Fin cfg0.N) (ht : 28 ≤ t.val) (x : S64x32.Idx) :
    k0_pay3 (iblk m c 5 t) (Hfun m c) x
      = Gfin m c (((cfg0.win 9).blk t).view.emb
          ((Rect.unit (s := S256x32) ![0, 0] S64x32.size inb_S256x32_S64x32_0_0).emb x)) := by
  obtain ⟨l, r, rfl⟩ : ∃ (l : Fin 64) (r : Fin 32), x = ix2 l r := ⟨x 0, x 1, eq_ix2 x⟩
  obtain ⟨-, -, -, -, -, -, -, -, e90, e91⟩ := idx_second t ht
  refine outpiece0_at m c t ht l r _ ?_ ?_
  · show win0_9.index t (0 : Fin 2) * 256 + 1 * (0 + 1 * l.val) = _
    omega
  · show win0_9.index t (1 : Fin 2) * 32 + 1 * (0 + 1 * r.val) = _
    omega

/-- THE OUTPUT BLOCK at a point of the second phase is that point's block of the result array. -/
theorem outblock_apply (c : Dev nD) (t : Fin cfg0.N) (ht : 28 ≤ t.val) (x : S256x32.Idx) :
    View.canon (outPieces (iblk m c 5 t) (iblk m c 6 t) (iblk m c 7 t) (iblk m c 8 t) (Hfun m c)) x
      = Gfin m c (((cfg0.win 9).blk t).view.emb x) := by
  refine View.canon_apply_of_pieces (fun x : S256x32.Idx => Gfin m c (((cfg0.win 9).blk t).view.emb x)) _ (fun pc hpc x' => ?_) x
    (View.cover_of_tiledL (outPieces (iblk m c 5 t) (iblk m c 6 t) (iblk m c 7 t) (iblk m c 8 t) (Hfun m c)) S64x32.size (by sl_kernel_rfl) x)
  unfold outPieces at hpc
  simp only [List.mem_cons, List.mem_nil_iff, or_false] at hpc
  rcases hpc with rfl | rfl | rfl | rfl
  · exact outpiece3_agrees m c t ht x'
  · exact outpiece2_agrees m c t ht x'
  · exact outpiece1_agrees m c t ht x'
  · exact outpiece0_agrees m c t ht x'

/-- What a point of the second phase writes back is its block of the result array. -/
theorem flushed9_eq (c : Dev nD) (t : Fin cfg0.N) (hf : (cfg0.win 9).flush t = true) :
    (dats m 0 c).flushed 9 t = ((cfg0.win 9).blk t).view.read (Elt Ideal) (Gfin m c) := by
  have ht : 28 ≤ t.val := (flush9 t).mp hf
  show (cfg0.win 9).cut (grid0.coords t) ((dats m 0 c).after 9 t) = _
  rw [after9]
  funext x
  exact outblock_apply m c t ht x

/-- An index of the result array is in point t's block iff each coordinate is in the block's range on its axis. -/
theorem mem_blk9 (t : Fin cfg0.N) (i : S4096x32.Idx) :
    i ∈ ((cfg0.win 9).blk t).view.set ↔ ∀ a : Fin 2, win0_9.index t a * S256x32.size a ≤ (i a).val
      ∧ (i a).val < win0_9.index t a * S256x32.size a + S256x32.size a := by
  show i ∈ ((View.whole main_call0_v2).slice (win0_9.rect t)).set ↔ _
  rw [View.set_slice_whole, Rect.mem_set_unit]
  exact Iff.rfl

/-- THE RESULT ARRAY after the run: the sixteen blocks of the second phase tile it, row i belonging to point 28 + i / 256. -/
theorem final9 (c : Dev nD) : (dats m 0 c).arrAt 9 cfg0.N = Gfin m c :=
  (dats m 0 c).arrAt_eq_of_cover 9 (Gfin m c) (fun t hf => flushed9_eq m c t hf) (fun i => by
    have hi0 : (i 0).val < 4096 := (i 0).isLt
    have hi1 : (i 1).val < 32 := (i 1).isLt
    have hN : cfg0.N = 44 := N_0
    have htN : 28 + (i 0).val / 256 < cfg0.N := by omega
    have ht : 28 ≤ (⟨28 + (i 0).val / 256, htN⟩ : Fin cfg0.N).val := Nat.le_add_right _ _
    obtain ⟨-, -, -, -, -, -, -, -, e90, e91⟩ := idx_second ⟨28 + (i 0).val / 256, htN⟩ ht
    refine ⟨⟨28 + (i 0).val / 256, htN⟩, (flush9 _).mpr ht, ?_⟩
    rw [mem_blk9]
    intro a
    match a with
    | ⟨0, _⟩ =>
      show win0_9.index ⟨28 + (i 0).val / 256, htN⟩ (0 : Fin 2) * 256 ≤ (i 0).val
        ∧ (i 0).val < win0_9.index ⟨28 + (i 0).val / 256, htN⟩ (0 : Fin 2) * 256 + 256
      rw [e90]; show (28 + (i 0).val / 256 - 28) * 256 ≤ (i 0).val ∧ (i 0).val < (28 + (i 0).val / 256 - 28) * 256 + 256
      omega
    | ⟨1, _⟩ =>
      show win0_9.index ⟨28 + (i 0).val / 256, htN⟩ (1 : Fin 2) * 32 ≤ (i 1).val
        ∧ (i 1).val < win0_9.index ⟨28 + (i 0).val / 256, htN⟩ (1 : Fin 2) * 32 + 32
      rw [e91]; omega)

/-! ## The host operations after the region, and the result -/

/-- The program's result at token (b, t), unit mm: the result array at (mm, 4·b + t). -/
theorem out_apply (c : Dev nD) (b : Fin 8) (t : Fin 4) (mm : Fin 4096) :
    (Vfin m c (Proc.devRef .tc main_v0) : S8x4x4096.Idx → Elt Ideal .f32) (ix3 b t mm)
      = Gfin m c (ix2 mm (Cert.LibRank3.flat 32 rfl b t)) := by
  have e : (Vfin m c (Proc.devRef .tc main_v0) : S8x4x4096.Idx → Elt Ideal .f32)
      = shapeCast S8x4x4096 (transpose S32x4096 [1, 0] (Vmid m c (Proc.devRef .tc main_call0_v2) : S4096x32.Idx → Elt Ideal .f32)
          transposes_S4096x32_S32x4096_1_0) shapeCasts_S32x4096_S8x4x4096 := by
    dsimp only [Vfin, hostOps1]; after_results; rfl
  exact (congrFun e _).trans ((Cert.LibRank3.cast_nc_abc 32 rfl _ _ b t mm).trans
    ((Cert.LibPlainDot.transpose_swap_apply 4096 32 _ _ (Cert.LibRank3.flat 32 rfl b t) mm).trans
      (congrFun ((Vmid_result m c).trans (final9 m c)) _)))

/-- THE KERNEL'S RESULT is the feed-forward block of its three arguments: the two programs differ in the order of the
    factors of each product, and multiplication on the extended reals is commutative. -/
theorem kernel_result (c : Dev nD) :
    (Vfin m c (Proc.devRef .tc main_v0) : S8x4x4096.Idx → Elt Ideal .f32)
      = Cert.Spec.ffn (m ((c : Thread nD τ).loc main_arg0)) (m ((c : Thread nD τ).loc main_arg1)) (m ((c : Thread nD τ).loc main_arg2)) := by
  funext i
  obtain ⟨b, t, mm, rfl⟩ : ∃ (b : Fin 8) (t : Fin 4) (mm : Fin 4096), i = ix3 b t mm := ⟨i 0, i 1, i 2, eq_ix3 i⟩
  rw [out_apply]
  show (Gfin m c (ix2 mm (Cert.LibRank3.flat 32 rfl b t)) : EReal)
    = Cert.Spec.ffn (m ((c : Thread nD τ).loc main_arg0)) (m ((c : Thread nD τ).loc main_arg1)) (m ((c : Thread nD τ).loc main_arg2)) (ix3 b t mm)
  unfold Gfin Cert.Spec.ffn
  refine Finset.sum_congr rfl fun k _ => ?_
  rw [Hfun_apply]
  show W2v m c (ix2 mm k) * hrow m c k (Cert.LibRank3.flat 32 rfl b t)
    = Cert.Spec.hidden _ _ b t k * (m ((c : Thread nD τ).loc main_arg2) : S4096x14336.Idx → EReal) (ix2 mm k)
  unfold hrow Cert.Spec.hidden W1v W2v XTv
  rw [V_arg1, V_arg2, mul_comm]
  congr 2
  refine Finset.sum_congr rfl fun q _ => ?_
  rw [xt_apply, mul_comm]

end Cert.KernelIdeal.Hand

end
-- ==== Proof.RefSpec.lean ====
/-
  The reference computes the specification: its two contractions are the specification's two sums, term by term, once
  the operand indices the contractions name are written by coordinates.
-/
import proofs.«168719_g47425028882858_cont_8to1c4_122_16_alg».proof.Proof.Gen.ReferenceIdeal.Read
import proofs.«168719_g47425028882858_cont_8to1c4_122_16_alg».proof.Proof.Spec

noncomputable section

open scoped BigOperators

namespace Cert.ReferenceIdeal.RefValue

open Cert.ReferenceIdeal Idealize.ShloMosaic Idealize.ShloMosaic.ValueIdx

/-- The reference's result, as a function of its three arguments, is the feed-forward block. -/
theorem result_eq (x : (⟨S8x4x4096, .f32⟩ : BufTy).Contents (Elt Ideal)) (W1 : (⟨S14336x4096, .f32⟩ : BufTy).Contents (Elt Ideal))
    (W2 : (⟨S4096x14336, .f32⟩ : BufTy).Contents (Elt Ideal)) :
    Read.val_main_v3 (F := Ideal) x W1 W2 = Cert.Spec.ffn x W1 W2 := by
  funext i
  rw [Read.val_main_v3_apply]
  unfold Cert.Spec.ffn
  refine Finset.sum_congr rfl fun k _ => ?_
  rw [Read.val_main_v2_apply, Read.val_main_v0_apply, Read.val_main_v1_apply, Read.val_main_cst_apply]
  have e1 : ∀ q : Fin 4096, Read.lidx_main_v0 (Read.lidx_main_v3 i k) q = ix3 (i 0) (i 1) q := fun q =>
    funext fun a => Fin.ext (by match a with | ⟨0, _⟩ => rfl | ⟨1, _⟩ => rfl | ⟨2, _⟩ => rfl)
  have e2 : ∀ q : Fin 4096, Read.ridx_main_v0 (Read.lidx_main_v3 i k) q = ix2 k q := fun q =>
    funext fun a => Fin.ext (by match a with | ⟨0, _⟩ => rfl | ⟨1, _⟩ => rfl)
  have e3 : Read.ridx_main_v3 i k = ix2 (i 2) k :=
    funext fun a => Fin.ext (by match a with | ⟨0, _⟩ => rfl | ⟨1, _⟩ => rfl)
  simp only [e1, e2, e3]
  rfl

end Cert.ReferenceIdeal.RefValue

end
-- ==== Proof.lean ====
/-
  A two-layer feed-forward block with a rectifier, out = relu(x · W1ᵀ) · W2ᵀ over 32 tokens, computed by one kernel in two
  phases — relu(W1 · xᵀ) into a scratch, 512 rows per grid point for 28 points, then W2 against the scratch, 256 rows of
  the transposed result per grid point for 16 — against the same block written as two contractions on the host.

  The frames (both programs' runs terminate, fault nowhere and leave the arguments unchanged) come from one run of @main
  as a host segment, the kernel region and a host segment, proved once for any float values and read at the word-level
  values and at the extended reals. At the extended reals that run also names the result: the scratch ends at the
  rectified products whatever it held before, each block of the result array is the product of a block of W2 with it, and
  the transposes around the region put entry (m, 4·b + t) of that array at (b, t, m). The reference's run gives the same
  sum with the factors of each product in the other order; multiplication on the extended reals is commutative, so the
  two results are one function of the arguments, with no appeal to the inputs being finite.
-/
import proofs.«168719_g47425028882858_cont_8to1c4_122_16_alg».proof.Defs
import proofs.«168719_g47425028882858_cont_8to1c4_122_16_alg».proof.Proof.Gen.Kernel
import proofs.«168719_g47425028882858_cont_8to1c4_122_16_alg».proof.Proof.Gen.KernelIdeal
import proofs.«168719_g47425028882858_cont_8to1c4_122_16_alg».proof.Proof.Gen.ReferenceIdeal
import proofs.«168719_g47425028882858_cont_8to1c4_122_16_alg».proof.Proof.Gen.Pre_finite_inputs
import proofs.«168719_g47425028882858_cont_8to1c4_122_16_alg».proof.Proof.Gen.ReferenceIdeal.Run
import proofs.«168719_g47425028882858_cont_8to1c4_122_16_alg».proof.Proof.Gen.ReferenceIdeal.Read
import proofs.«168719_g47425028882858_cont_8to1c4_122_16_alg».proof.Proof.BitsLaunch
import proofs.«168719_g47425028882858_cont_8to1c4_122_16_alg».proof.Proof.IdealValue
import proofs.«168719_g47425028882858_cont_8to1c4_122_16_alg».proof.Proof.RefSpec
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the kernel read at the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- From memories agreeing on the arguments both programs end with the feed-forward block of those arguments. -/
theorem algebraic : Cert.algebraic_KernelIdeal_ReferenceIdeal := by
  intro m ρ m' ρ' _ hagree
  refine ⟨fun c => Cert.Spec.ffn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Hand.mem_uc Cert.KernelIdeal.main_v0 rfl)).trans (Cert.KernelIdeal.Hand.kernel_result m c),
       (h c _ (Cert.KernelIdeal.Hand.mem_uc Cert.KernelIdeal.main_arg0 rfl)).trans
         (Cert.KernelIdeal.Hand.Vfin_kept m c Cert.KernelIdeal.main_arg0 (by decide) (by decide) (by decide)),
       (h c _ (Cert.KernelIdeal.Hand.mem_uc Cert.KernelIdeal.main_arg1 rfl)).trans
         (Cert.KernelIdeal.Hand.Vfin_kept m c Cert.KernelIdeal.main_arg1 (by decide) (by decide) (by decide)),
       (h c _ (Cert.KernelIdeal.Hand.mem_uc Cert.KernelIdeal.main_arg2 rfl)).trans
         (Cert.KernelIdeal.Hand.Vfin_kept m c Cert.KernelIdeal.main_arg2 (by decide) (by decide) (by decide))⟩)
      (Cert.KernelIdeal.Hand.run_main m ρ)
  · exact (θ_run Cert.ReferenceIdeal.defs _ _).mono (fun r h c =>
      ⟨by rw [(h c).1, Cert.ReferenceIdeal.Read.val_main_v3_eq, Cert.ReferenceIdeal.RefValue.result_eq,
            (hagree c).1, (hagree c).2.1, (hagree c).2.2], (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
